-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S256x1024 : Shape := ⟨2, ![256, 1024]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x1024 .f32) (main_arg1 : FVec F S2048x1024 .f32) (main_arg2 : FVec F S256x1024 .f32) (main_arg3 : FVec F S32x1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg4 main_arg5 main_arg6 main_arg7 main_arg8 main_arg9 main_v13 main_v16
-- ==== Kernel.lean ====
abbrev S16384x1024 : Shape := ⟨2, ![16384, 1024]⟩
abbrev S2048x1024 : Shape := ⟨2, ![2048, 1024]⟩
abbrev S256x1024 : Shape := ⟨2, ![256, 1024]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S1x2048 : Shape := ⟨2, ![1, 2048]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32 : Shape := ⟨1, ![32]⟩
abbrev S1x32 : Shape := ⟨2, ![1, 32]⟩
abbrev S256x32 : Shape := ⟨2, ![256, 32]⟩

abbrev nBuf : Space → Nat
  | .hbm => 34
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S256x1024, .f32⟩
  | .hbm, ⟨3, _⟩ => ⟨S32x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x1024, .bf16⟩
  | .hbm, ⟨11, _⟩ => ⟨S1024x1024, .bf16⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S1x1024, .f32⟩
  | .hbm, ⟨17, _⟩ => ⟨S2048x1024, .f32⟩
  | .hbm, ⟨18, _⟩ => ⟨S256x1024, .bf16⟩
  | .hbm, ⟨19, _⟩ => ⟨S1024x1024, .bf16⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S1x256, .f32⟩
  | .hbm, ⟨24, _⟩ => ⟨S1x1024, .f32⟩
  | .hbm, ⟨25, _⟩ => ⟨S256x1024, .f32⟩
  | .hbm, ⟨26, _⟩ => ⟨S32x1024, .bf16⟩
  | .hbm, ⟨27, _⟩ => ⟨S1024x1024, .bf16⟩
  | .hbm, ⟨28, _⟩ => ⟨S32x1024, .f32⟩
  | .hbm, ⟨29, _⟩ => ⟨S_, .f32⟩
  | .hbm, ⟨30, _⟩ => ⟨S32, .f32⟩
  | .hbm, ⟨31, _⟩ => ⟨S1x32, .f32⟩
  | .hbm, ⟨32, _⟩ => ⟨S1x1024, .f32⟩
  | .hbm, ⟨33, _⟩ => ⟨S32x1024, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S1x2048, .f32⟩
  | .local _ .vmem, ⟨4, _⟩ => ⟨S1024x1024, .bf16⟩
  | .local _ .vmem, ⟨5, _⟩ => ⟨S1x1024, .f32⟩
  | .local _ .vmem, ⟨6, _⟩ => ⟨S2048x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S1x256, .f32⟩
  | .local _ .vmem, ⟨11, _⟩ => ⟨S1024x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S32x1024, .bf16⟩
  | .local _ .vmem, ⟨16, _⟩ => ⟨S1x32, .f32⟩
  | .local _ .vmem, ⟨17, _⟩ => ⟨S1024x1024, .bf16⟩
  | .local _ .vmem, ⟨18, _⟩ => ⟨S1x1024, .f32⟩
  | .local _ .vmem, ⟨19, _⟩ => ⟨S32x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S32x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bitsLt_bf16_f32 : FTy.bits .bf16 < FTy.bits .f32
  reducesTo_S2048x1024_S2048_d1 : S2048x1024.ReducesTo [1] S2048
  h_S_ : 0 < S_.numel
  bcast_S2048_S1x2048_1 : S2048.BroadcastsInDim S1x2048 (![1] : Fin 1 → Fin S1x2048.rank)
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S256x1024_S256x1024_0_0 : ∀ a, (![0, 0] : Fin 2 → Nat) a + S256x1024.size a ≤ S256x1024.size a
  h_S256x1024 : 0 < S256x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x1024_S256 : S256x1024.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x2048_S256 : S256x2048.Reduces [1] S256
  broadcasts_S1x1024_S256x1024 : S1x1024.Broadcasts S256x1024
  reducesTo_S256x1024_S256_d1 : S256x1024.ReducesTo [1] S256
  bcast_S256_S1x256_1 : S256.BroadcastsInDim S1x256 (![1] : Fin 1 → Fin S1x256.rank)
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  reduces_S256x256_S256 : S256x256.Reduces [1] S256
  reducesTo_S32x1024_S32_d1 : S32x1024.ReducesTo [1] S32
  bcast_S32_S1x32_1 : S32.BroadcastsInDim S1x32 (![1] : Fin 1 → Fin S1x32.rank)
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S256x1_S256x32 : S256x1.Broadcasts S256x32
  broadcasts_S1x32_S256x32 : S1x32.Broadcasts S256x32
  reduces_S256x32_S256 : S256x32.Reduces [1] S256
  dot_S256x1024_S2048x1024_S256x2048_1_1_0_0_n_n_wf : DotDims.WF S256x1024 S2048x1024 S256x2048 [1] [1] [0] [0] [] []
  dot_S256x1024_S1024x1024_S256x1024_1_1_0_0_n_n_wf : DotDims.WF S256x1024 S1024x1024 S256x1024 [1] [1] [0] [0] [] []
  dot_S256x2048_S256x1024_S2048x1024_0_0_1_1_n_n_wf : DotDims.WF S256x2048 S256x1024 S2048x1024 [0] [0] [1] [1] [] []
  dot_S256x1024_S256x1024_S256x256_1_1_0_0_n_n_wf : DotDims.WF S256x1024 S256x1024 S256x256 [1] [1] [0] [0] [] []
  dot_S256x256_S256x1024_S256x1024_0_0_1_1_n_n_wf : DotDims.WF S256x256 S256x1024 S256x1024 [0] [0] [1] [1] [] []
  dot_S256x1024_S32x1024_S256x32_1_1_0_0_n_n_wf : DotDims.WF S256x1024 S32x1024 S256x32 [1] [1] [0] [0] [] []
  dot_S256x32_S256x1024_S32x1024_0_0_1_1_n_n_wf : DotDims.WF S256x32 S256x1024 S32x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .f32 = 32 ∨ (Rect.block (s := S2048x1024) S2048x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .f32 = 32 ∨ (Rect.block (s := S2048x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S256x1024.size a
  hwx1_5 : ∀ i : grid1.Coords, EltTy.bits .f32 = 32 ∨ (Rect.block (s := S256x1024) S256x1024.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S256x1024.size a
  hwx2_0 : ∀ i : grid2.Coords, EltTy.bits .f32 = 32 ∨ (Rect.block (s := S256x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1024.size a ≤ S32x1024.size a
  hwx2_1 : ∀ i : grid2.Coords, EltTy.bits .bf16 = 32 ∨ (Rect.block (s := S32x1024) S32x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1024.size a ≤ S32x1024.size a
  hwx2_5 : ∀ i : grid2.Coords, EltTy.bits .f32 = 32 ∨ (Rect.block (s := S32x1024) S32x1024.size (cc2_transform_5 i) (hinb2_5 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x2048_S256x1024_S2048x1024_0_0_1_1_n_n : DotDims S256x2048 S256x1024 S2048x1024 where
  lhsContracting := [0]
  rhsContracting := [0]
  lhsNonContracting := [1]
  rhsNonContracting := [1]
  lhsBatch := []
  rhsBatch := []
  wf := dot_S256x2048_S256x1024_S2048x1024_0_0_1_1_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x256_S256x1024_S256x1024_0_0_1_1_n_n : DotDims S256x256 S256x1024 S256x1024 where
  lhsContracting := [0]
  rhsContracting := [0]
  lhsNonContracting := [1]
  rhsNonContracting := [1]
  lhsBatch := []
  rhsBatch := []
  wf := dot_S256x256_S256x1024_S256x1024_0_0_1_1_n_n_wf
def dot_S256x1024_S32x1024_S256x32_1_1_0_0_n_n : DotDims S256x1024 S32x1024 S256x32 where
  lhsContracting := [1]
  rhsContracting := [1]
  lhsNonContracting := [0]
  rhsNonContracting := [0]
  lhsBatch := []
  rhsBatch := []
  wf := dot_S256x1024_S32x1024_S256x32_1_1_0_0_n_n_wf
def dot_S256x32_S256x1024_S32x1024_0_0_1_1_n_n : DotDims S256x32 S256x1024 S32x1024 where
  lhsContracting := [0]
  rhsContracting := [0]
  lhsNonContracting := [1]
  rhsNonContracting := [1]
  lhsBatch := []
  rhsBatch := []
  wf := dot_S256x32_S256x1024_S32x1024_0_0_1_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S256x1024.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v13) S256x1024.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v14) S32x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S32x1024.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S256x1024 : Shape := ⟨2, ![256, 1024]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S16384x2048 : Shape := ⟨2, ![16384, 2048]⟩
abbrev S2048 : Shape := ⟨1, ![2048]⟩
abbrev S1x2048 : Shape := ⟨2, ![1, 2048]⟩
abbrev S1x1024 : Shape := ⟨2, ![1, 1024]⟩
abbrev S2048x16384 : Shape := ⟨2, ![2048, 16384]⟩
abbrev S2048x1 : Shape := ⟨2, ![2048, 1]⟩
abbrev S1024x256 : Shape := ⟨2, ![1024, 256]⟩
abbrev S2048x256 : Shape := ⟨2, ![2048, 256]⟩
abbrev S256 : Shape := ⟨1, ![256]⟩
abbrev S1x256 : Shape := ⟨2, ![1, 256]⟩
abbrev S256x2048 : Shape := ⟨2, ![256, 2048]⟩
abbrev S256x1 : Shape := ⟨2, ![256, 1]⟩
abbrev S1024x32 : Shape := ⟨2, ![1024, 32]⟩
abbrev S256x32 : Shape := ⟨2, ![256, 32]⟩
abbrev S32 : Shape := ⟨1, ![32]⟩
abbrev S1x32 : Shape := ⟨2, ![1, 32]⟩
abbrev S32x256 : Shape := ⟨2, ![32, 256]⟩

abbrev nBuf : Space → Nat
  | .hbm => 139
  | .vmem => 0
  | .smem => 0
  | _ => 0

abbrev hbmTy0_0 (i : Nat) : BufTy := match i % 128 with
  | 0 => ⟨S16384x1024, .f32⟩
  | 1 => ⟨S2048x1024, .f32⟩
  | 2 => ⟨S256x1024, .f32⟩
  | 3 => ⟨S32x1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S1024x2048, .f32⟩
  | 15 => ⟨S16384x2048, .f32⟩
  | 16 => ⟨S_, .f32⟩
  | 17 => ⟨S16384x2048, .f32⟩
  | 18 => ⟨S16384x2048, .f32⟩
  | 19 => ⟨S16384x2048, .f32⟩
  | 20 => ⟨S16384x2048, .f32⟩
  | 21 => ⟨S2048x1024, .f32⟩
  | 22 => ⟨S_, .f32⟩
  | 23 => ⟨S2048, .f32⟩
  | 24 => ⟨S1x2048, .f32⟩
  | 25 => ⟨S16384x2048, .f32⟩
  | 26 => ⟨S16384x2048, .f32⟩
  | 27 => ⟨S16384x2048, .f32⟩
  | 28 => ⟨S_, .f32⟩
  | 29 => ⟨S16384x2048, .f32⟩
  | 30 => ⟨S16384x2048, .f32⟩
  | 31 => ⟨S_, .f32⟩
  | 32 => ⟨S16384, .f32⟩
  | 33 => ⟨S_, .f32⟩
  | 34 => ⟨S16384, .f32⟩
  | 35 => ⟨S16384, .f32⟩
  | 36 => ⟨S16384x1, .f32⟩
  | 37 => ⟨S16384x2048, .f32⟩
  | 38 => ⟨S16384x2048, .f32⟩
  | 39 => ⟨S16384x2048, .f32⟩
  | 40 => ⟨S_, .f32⟩
  | 41 => ⟨S16384, .f32⟩
  | 42 => ⟨S16384x1, .f32⟩
  | 43 => ⟨S16384x2048, .f32⟩
  | 44 => ⟨S16384x2048, .f32⟩
  | 45 => ⟨S1024x1024, .f32⟩
  | 46 => ⟨S16384x1024, .f32⟩
  | 47 => ⟨S1x1024, .f32⟩
  | 48 => ⟨S16384x1024, .f32⟩
  | 49 => ⟨S16384x1024, .f32⟩
  | 50 => ⟨S16384x1024, .f32⟩
  | 51 => ⟨S2048x16384, .f32⟩
  | 52 => ⟨S2048x1024, .f32⟩
  | 53 => ⟨S2048x1024, .f32⟩
  | 54 => ⟨S_, .f32⟩
  | 55 => ⟨S2048, .f32⟩
  | 56 => ⟨S2048x1, .f32⟩
  | 57 => ⟨S1024x256, .f32⟩
  | 58 => ⟨S2048x256, .f32⟩
  | 59 => ⟨S_, .f32⟩
  | 60 => ⟨S2048x256, .f32⟩
  | 61 => ⟨S2048x256, .f32⟩
  | 62 => ⟨S2048x256, .f32⟩
  | 63 => ⟨S2048x256, .f32⟩
  | 64 => ⟨S256x1024, .f32⟩
  | 65 => ⟨S_, .f32⟩
  | 66 => ⟨S256, .f32⟩
  | 67 => ⟨S1x256, .f32⟩
  | 68 => ⟨S2048x256, .f32⟩
  | 69 => ⟨S2048x256, .f32⟩
  | 70 => ⟨S2048x256, .f32⟩
  | 71 => ⟨S_, .f32⟩
  | 72 => ⟨S2048x256, .f32⟩
  | 73 => ⟨S2048x256, .f32⟩
  | 74 => ⟨S_, .f32⟩
  | 75 => ⟨S2048, .f32⟩
  | 76 => ⟨S_, .f32⟩
  | 77 => ⟨S2048, .f32⟩
  | 78 => ⟨S2048, .f32⟩
  | 79 => ⟨S2048x1, .f32⟩
  | 80 => ⟨S2048x256, .f32⟩
  | 81 => ⟨S2048x256, .f32⟩
  | 82 => ⟨S2048x256, .f32⟩
  | 83 => ⟨S_, .f32⟩
  | 84 => ⟨S2048, .f32⟩
  | 85 => ⟨S2048x1, .f32⟩
  | 86 => ⟨S2048x256, .f32⟩
  | 87 => ⟨S2048x256, .f32⟩
  | 88 => ⟨S1024x1024, .f32⟩
  | 89 => ⟨S2048x1024, .f32⟩
  | 90 => ⟨S1x1024, .f32⟩
  | 91 => ⟨S2048x1024, .f32⟩
  | 92 => ⟨S2048x1024, .f32⟩
  | 93 => ⟨S2048x1024, .f32⟩
  | 94 => ⟨S256x2048, .f32⟩
  | 95 => ⟨S256x1024, .f32⟩
  | 96 => ⟨S256x1024, .f32⟩
  | 97 => ⟨S_, .f32⟩
  | 98 => ⟨S256, .f32⟩
  | 99 => ⟨S256x1, .f32⟩
  | 100 => ⟨S1024x32, .f32⟩
  | 101 => ⟨S256x32, .f32⟩
  | 102 => ⟨S_, .f32⟩
  | 103 => ⟨S256x32, .f32⟩
  | 104 => ⟨S256x32, .f32⟩
  | 105 => ⟨S256x32, .f32⟩
  | 106 => ⟨S256x32, .f32⟩
  | 107 => ⟨S32x1024, .f32⟩
  | 108 => ⟨S_, .f32⟩
  | 109 => ⟨S32, .f32⟩
  | 110 => ⟨S1x32, .f32⟩
  | 111 => ⟨S256x32, .f32⟩
  | 112 => ⟨S256x32, .f32⟩
  | 113 => ⟨S256x32, .f32⟩
  | 114 => ⟨S_, .f32⟩
  | 115 => ⟨S256x32, .f32⟩
  | 116 => ⟨S256x32, .f32⟩
  | 117 => ⟨S_, .f32⟩
  | 118 => ⟨S256, .f32⟩
  | 119 => ⟨S_, .f32⟩
  | 120 => ⟨S256, .f32⟩
  | 121 => ⟨S256, .f32⟩
  | 122 => ⟨S256x1, .f32⟩
  | 123 => ⟨S256x32, .f32⟩
  | 124 => ⟨S256x32, .f32⟩
  | 125 => ⟨S256x32, .f32⟩
  | 126 => ⟨S_, .f32⟩
  | 127 => ⟨S256, .f32⟩
  | _ => ⟨S16384x1024, .f32⟩

abbrev hbmTy0_1 (i : Nat) : BufTy := match i % 128 with
  | 0 => ⟨S256x1, .f32⟩
  | 1 => ⟨S256x32, .f32⟩
  | 2 => ⟨S256x32, .f32⟩
  | 3 => ⟨S1024x1024, .f32⟩
  | 4 => ⟨S256x1024, .f32⟩
  | 5 => ⟨S1x1024, .f32⟩
  | 6 => ⟨S256x1024, .f32⟩
  | 7 => ⟨S256x1024, .f32⟩
  | 8 => ⟨S256x1024, .f32⟩
  | 9 => ⟨S32x256, .f32⟩
  | 10 => ⟨S32x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  transposes_S2048x1024_S1024x2048_1_0 : S2048x1024.Transposes [1, 0] S1024x2048
  bcast_S_S16384x2048 : S_.BroadcastsInDim S16384x2048 (![] : Fin 0 → Fin S16384x2048.rank)
  bcast_S16384x1_S16384x2048_0_1 : S16384x1.BroadcastsInDim S16384x2048 (![0, 1] : Fin 2 → Fin S16384x2048.rank)
  reducesTo_S2048x1024_S2048_d1 : S2048x1024.ReducesTo [1] S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  bcast_S_S16384 : S_.BroadcastsInDim S16384 (![] : Fin 0 → Fin S16384.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S16384x2048_S2048x16384_1_0 : S16384x2048.Transposes [1, 0] S2048x16384
  bcast_S2048_S2048x1_0 : S2048.BroadcastsInDim S2048x1 (![0] : Fin 1 → Fin S2048x1.rank)
  transposes_S256x1024_S1024x256_1_0 : S256x1024.Transposes [1, 0] S1024x256
  bcast_S_S2048x256 : S_.BroadcastsInDim S2048x256 (![] : Fin 0 → Fin S2048x256.rank)
  bcast_S2048x1_S2048x256_0_1 : S2048x1.BroadcastsInDim S2048x256 (![0, 1] : Fin 2 → Fin S2048x256.rank)
  reducesTo_S256x1024_S256_d1 : S256x1024.ReducesTo [1] S256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S2048x256_S2048_d1 : S2048x256.ReducesTo [1] S2048
  bcast_S_S2048 : S_.BroadcastsInDim S2048 (![] : Fin 0 → Fin S2048.rank)
  bcast_S1x1024_S2048x1024_0_1 : S1x1024.BroadcastsInDim S2048x1024 (![0, 1] : Fin 2 → Fin S2048x1024.rank)
  transposes_S2048x256_S256x2048_1_0 : S2048x256.Transposes [1, 0] S256x2048
  bcast_S256_S256x1_0 : S256.BroadcastsInDim S256x1 (![0] : Fin 1 → Fin S256x1.rank)
  transposes_S32x1024_S1024x32_1_0 : S32x1024.Transposes [1, 0] S1024x32
  bcast_S_S256x32 : S_.BroadcastsInDim S256x32 (![] : Fin 0 → Fin S256x32.rank)
  bcast_S256x1_S256x32_0_1 : S256x1.BroadcastsInDim S256x32 (![0, 1] : Fin 2 → Fin S256x32.rank)
  reducesTo_S32x1024_S32_d1 : S32x1024.ReducesTo [1] S32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  reducesTo_S256x32_S256_d1 : S256x32.ReducesTo [1] S256
  bcast_S_S256 : S_.BroadcastsInDim S256 (![] : Fin 0 → Fin S256.rank)
  bcast_S1x1024_S256x1024_0_1 : S1x1024.BroadcastsInDim S256x1024 (![0, 1] : Fin 2 → Fin S256x1024.rank)
  transposes_S256x32_S32x256_1_0 : S256x32.Transposes [1, 0] S32x256
  dot_S16384x1024_S1024x2048_S16384x2048_1_0_0_1_n_n_wf : DotDims.WF S16384x1024 S1024x2048 S16384x2048 [1] [0] [0] [1] [] []
  dot_S16384x1024_S1024x1024_S16384x1024_1_0_0_1_n_n_wf : DotDims.WF S16384x1024 S1024x1024 S16384x1024 [1] [0] [0] [1] [] []
  dot_S2048x16384_S16384x1024_S2048x1024_1_0_0_1_n_n_wf : DotDims.WF S2048x16384 S16384x1024 S2048x1024 [1] [0] [0] [1] [] []
  dot_S2048x1024_S1024x256_S2048x256_1_0_0_1_n_n_wf : DotDims.WF S2048x1024 S1024x256 S2048x256 [1] [0] [0] [1] [] []
  dot_S2048x1024_S1024x1024_S2048x1024_1_0_0_1_n_n_wf : DotDims.WF S2048x1024 S1024x1024 S2048x1024 [1] [0] [0] [1] [] []
  dot_S256x2048_S2048x1024_S256x1024_1_0_0_1_n_n_wf : DotDims.WF S256x2048 S2048x1024 S256x1024 [1] [0] [0] [1] [] []
  dot_S256x1024_S1024x32_S256x32_1_0_0_1_n_n_wf : DotDims.WF S256x1024 S1024x32 S256x32 [1] [0] [0] [1] [] []
  dot_S256x1024_S1024x1024_S256x1024_1_0_0_1_n_n_wf : DotDims.WF S256x1024 S1024x1024 S256x1024 [1] [0] [0] [1] [] []
  dot_S32x256_S256x1024_S32x1024_1_0_0_1_n_n_wf : DotDims.WF S32x256 S256x1024 S32x1024 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S2048x16384_S16384x1024_S2048x1024_1_0_0_1_n_n : DotDims S2048x16384 S16384x1024 S2048x1024 where
  lhsContracting := [1]
  rhsContracting := [0]
  lhsNonContracting := [0]
  rhsNonContracting := [1]
  lhsBatch := []
  rhsBatch := []
  wf := dot_S2048x16384_S16384x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf

class Facts : Prop extends Facts₀ where

variable [Facts]
-- ==== Proof.KernelRun.lean ====
/-
  The kernel's program run to its end with the result array named.

  The program is three regions among three stretches of host operations. Run from any memory, every weakly fair execution ends, nothing
  faulting, and the thread's unscoped buffers end at the contents the last segment boundary names: so the result array ends at that
  boundary's contents of its buffer, and each argument at its launch contents. The segments, their proof data and the boundaries'
  contents are those of the program's frame; only the final reading differs, which also reads the result's buffer.
-/
import proofs.«143953_j12661563588794_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents of its buffer and the
    arguments as launched. -/
theorem run_value : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KernelRun

end
-- ==== Proof.Spec.lean ====
/-
  The function both programs compute, written once over the extended reals.

  A level takes `n` feature rows `h r` of length `d`, `m` centers `c j` of length `d`, a `d × d` weight matrix `W` and a
  bias `b`. Row `r` is softly assigned to the centers: its logit at center `j` is minus the squared distance
  `‖h r‖² - 2 ⟨h r, c j⟩ + ‖c j‖²` over `4`, and its weight `prob` at `j` is the softmax of the logits over the centers (taken
  the usual way, the row's largest logit subtracted before the exponential). Row `r` is also transformed to
  `act = tanh (⟨h r, W o⟩ + b o)`. The level's output row `j` is the sum over ALL rows `r` of `prob r j · act r`: a new
  `m × d` matrix. Three levels are chained. Everything a row contributes depends on that row alone, which is why the sum over the
  rows may be taken tile by tile.
-/
import Idealize.ShloMosaic.PureOps.Ideal
import Idealize.ShloMosaic.Lib.ValueIdx

noncomputable section

namespace Cert.SoftAssign

open Idealize.ShloMosaic Idealize.ShloMosaic.ValueIdx
open scoped BigOperators

/-- The three float words both programs carry, kept as the words they are (`2`, `4` and `-∞`). -/
abbrev two : EReal := Ideal.ofBits .f32 0x40000000#32
abbrev four : EReal := Ideal.ofBits .f32 0x40800000#32
abbrev negInf : EReal := Ideal.ofBits .f32 0xFF800000#32

variable {n m d : ℕ}

/-- The squared norm of a row. -/
def sqn (v : Fin d → EReal) : EReal := ∑ k : Fin d, v k * v k

/-- The inner product of two rows. -/
def dot (v w : Fin d → EReal) : EReal := ∑ k : Fin d, v k * w k

/-- Row `v`'s logit at center `j`: minus its squared distance to the center, over `4`. -/
def logit (v : Fin d → EReal) (c : Fin m → Fin d → EReal) (j : Fin m) : EReal :=
  Ideal.div (-((sqn v - two * dot v (c j)) + sqn (c j))) four

/-- The largest of a family of logits, never below `-∞`. -/
def rmax (z : Fin m → EReal) : EReal := max negInf ((Finset.univ : Finset (Fin m)).fold max negInf z)

/-- The exponential of a logit after the row's largest logit is subtracted. -/
def expo (v : Fin d → EReal) (c : Fin m → Fin d → EReal) (j : Fin m) : EReal :=
  Ideal.exp (logit v c j - rmax (logit v c))

/-- Row `v`'s softmax weight at center `j`. -/
def prob (v : Fin d → EReal) (c : Fin m → Fin d → EReal) (j : Fin m) : EReal :=
  Ideal.div (expo v c j) (∑ j' : Fin m, expo v c j')

/-- Row `v` transformed: `tanh (⟨v, W o⟩ + b o)` at output column `o`. -/
def act (v : Fin d → EReal) (W : Fin d → Fin d → EReal) (b : Fin d → EReal) (o : Fin d) : EReal :=
  Ideal.tanh (dot v (W o) + b o)

/-- What one row contributes to output entry `(j, o)`. -/
def term (v : Fin d → EReal) (c : Fin m → Fin d → EReal) (W : Fin d → Fin d → EReal) (b : Fin d → EReal) (j : Fin m) (o : Fin d) :
    EReal := prob v c j * act v W b o

/-- One level: entry `(j, o)` sums every row's contribution. -/
def level (h : Fin n → Fin d → EReal) (c : Fin m → Fin d → EReal) (W : Fin d → Fin d → EReal) (b : Fin d → EReal)
    (j : Fin m) (o : Fin d) : EReal := ∑ r : Fin n, term (h r) c W b j o

/-- The three levels chained. -/
def forward {n0 n1 n2 n3 : ℕ} (x : Fin n0 → Fin d → EReal) (c1 : Fin n1 → Fin d → EReal) (c2 : Fin n2 → Fin d → EReal)
    (c3 : Fin n3 → Fin d → EReal) (W1 : Fin d → Fin d → EReal) (b1 : Fin d → EReal) (W2 : Fin d → Fin d → EReal) (b2 : Fin d → EReal)
    (W3 : Fin d → Fin d → EReal) (b3 : Fin d → EReal) : Fin n3 → Fin d → EReal :=
  level (level (level x c1 W1 b1) c2 W2 b2) c3 W3 b3

/-! ## Arrays and their coordinate functions -/

/-- A rank-2 array as a function of its two coordinates. -/
def mat {a b : ℕ} (x : (⟨2, ![a, b]⟩ : Shape).Idx → EReal) : Fin a → Fin b → EReal := fun r k => x (ix2 r k)

/-- A rank-1 array as a function of its coordinate. -/
def vec {a : ℕ} (x : (⟨1, ![a]⟩ : Shape).Idx → EReal) : Fin a → EReal := fun k => x (ix1 k)

/-- A function of two coordinates as a rank-2 array. -/
def toArr {a b : ℕ} (f : Fin a → Fin b → EReal) : (⟨2, ![a, b]⟩ : Shape).Idx → EReal := fun i => f (i 0) (i 1)

theorem toArr_ix2 {a b : ℕ} (f : Fin a → Fin b → EReal) (r : Fin a) (k : Fin b) : toArr f (ix2 r k) = f r k := rfl

theorem mat_toArr {a b : ℕ} (f : Fin a → Fin b → EReal) : mat (toArr f) = f := rfl

/-- An array all of whose entries are those of `f` is `toArr f`. -/
theorem eq_toArr {a b : ℕ} (x : (⟨2, ![a, b]⟩ : Shape).Idx → EReal) (f : Fin a → Fin b → EReal)
    (h : ∀ r k, x (ix2 r k) = f r k) : x = toArr f := by
  funext i
  rw [eq_ix2 i]
  exact h _ _

end Cert.SoftAssign

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.TileLevel.lean ====
/-
  One tile of rows through a level, as the kernel body computes it, general in the extents.

  The body holds a tile `x` of `T` feature rows, all `m` centers `cb`, the centers' squared norms `cs` as one row, the weights `wb`
  and the bias `bb` as one row. From them it forms the tile's logits (`tLogit`), the exponentials after each row's largest logit is
  subtracted (`tExp`), the softmax weights (`tProb`), the transformed rows (`tAct`), the tile's contribution to the level's
  output as one matrix product contracting the tile's rows (`tContrib`), and adds it to what the output block held (`tStep`).
  `tStep_apply` reads the result at an entry: the old entry plus the sum over the tile's rows of the rows' contributions `term`.
-/
import proofs.«143953_j12661563588794_1_alg».proof.Proof.Spec
import proofs.«143953_j12661563588794_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.TileLevel

open Idealize.ShloMosaic Idealize.ShloMosaic.ValueIdx Cert.SoftAssign
open scoped BigOperators

/-- The shape facts and dimension numbers one level's body is printed with: a tile of `T` rows of length `d` against `m` centers. -/
structure Recs (T m d : ℕ) where
  redX : (⟨2, ![T, d]⟩ : Shape).Reduces [1] ⟨1, ![T]⟩
  redZ : (⟨2, ![T, m]⟩ : Shape).Reduces [1] ⟨1, ![T]⟩
  col : (⟨1, ![T]⟩ : Shape).ShapeCasts ⟨2, ![T, 1]⟩
  bcCol : (⟨2, ![T, 1]⟩ : Shape).Broadcasts ⟨2, ![T, m]⟩
  bcRow : (⟨2, ![1, m]⟩ : Shape).Broadcasts ⟨2, ![T, m]⟩
  bcBias : (⟨2, ![1, d]⟩ : Shape).Broadcasts ⟨2, ![T, d]⟩
  dotC : DotDims ⟨2, ![T, d]⟩ ⟨2, ![m, d]⟩ ⟨2, ![T, m]⟩
  dotW : DotDims ⟨2, ![T, d]⟩ ⟨2, ![d, d]⟩ ⟨2, ![T, d]⟩
  dotOut : DotDims ⟨2, ![T, m]⟩ ⟨2, ![T, d]⟩ ⟨2, ![m, d]⟩

variable {T m d : ℕ}

/-- The tile's logits: `(0 - ((‖x r‖² - 2 ⟨x r, c j⟩) + ‖c j‖²)) / 4`. -/
def tLogit (R : Recs T m d) (x : FVec Ideal ⟨2, ![T, d]⟩ .f32) (cb : FVec Ideal ⟨2, ![m, d]⟩ .bf16)
    (cs : FVec Ideal ⟨2, ![1, m]⟩ .f32) : FVec Ideal ⟨2, ![T, m]⟩ .f32 :=
  divf (subf (broadcast ⟨2, ![T, m]⟩ (Scalar.ofBits .f32 0x00000000#32))
      (addf (subf (broadcastTo ⟨2, ![T, m]⟩ (shapeCast ⟨2, ![T, 1]⟩
              (multiReduction .add [1] ⟨1, ![T]⟩ (mulf x x) 0x00000000#32 R.redX (.inl rfl) rfl) R.col) R.bcCol)
            (mulf (broadcast ⟨2, ![T, m]⟩ (Scalar.ofBits .f32 0x40000000#32))
              (matmul R.dotC none (truncf .bf16 x (by decide : FTy.bits .bf16 < FTy.bits .f32)) cb (constant ⟨2, ![T, m]⟩ .f32 0x00000000#32))))
        (broadcastTo ⟨2, ![T, m]⟩ cs R.bcRow)))
    (broadcast ⟨2, ![T, m]⟩ (Scalar.ofBits .f32 0x40800000#32))

/-- The exponentials of the logits after each row's largest is subtracted. -/
def tExp (R : Recs T m d) (z : FVec Ideal ⟨2, ![T, m]⟩ .f32) : FVec Ideal ⟨2, ![T, m]⟩ .f32 :=
  exp (subf z (broadcastTo ⟨2, ![T, m]⟩ (shapeCast ⟨2, ![T, 1]⟩
    (maximumf (broadcast ⟨1, ![T]⟩ (Scalar.ofBits .f32 0xFF800000#32))
      (multiReduction .maximumf [1] ⟨1, ![T]⟩ z 0xFF800000#32 R.redZ (.inl rfl) rfl)) R.col) R.bcCol))

/-- Each row's sum of exponentials, spread over the row. -/
def tDen (R : Recs T m d) (e : FVec Ideal ⟨2, ![T, m]⟩ .f32) : FVec Ideal ⟨2, ![T, m]⟩ .f32 :=
  broadcastTo ⟨2, ![T, m]⟩ (shapeCast ⟨2, ![T, 1]⟩
    (multiReduction .add [1] ⟨1, ![T]⟩ e 0x00000000#32 R.redZ (.inl rfl) rfl) R.col) R.bcCol

/-- The tile's softmax weights. -/
def tProb (R : Recs T m d) (x : FVec Ideal ⟨2, ![T, d]⟩ .f32) (cb : FVec Ideal ⟨2, ![m, d]⟩ .bf16)
    (cs : FVec Ideal ⟨2, ![1, m]⟩ .f32) : FVec Ideal ⟨2, ![T, m]⟩ .f32 :=
  divf (tExp R (tLogit R x cb cs)) (tDen R (tExp R (tLogit R x cb cs)))

/-- The tile's transformed rows. -/
def tAct (R : Recs T m d) (x : FVec Ideal ⟨2, ![T, d]⟩ .f32) (wb : FVec Ideal ⟨2, ![d, d]⟩ .bf16)
    (bb : FVec Ideal ⟨2, ![1, d]⟩ .f32) : FVec Ideal ⟨2, ![T, d]⟩ .f32 :=
  tanh (addf (matmul R.dotW none (truncf .bf16 x (by decide : FTy.bits .bf16 < FTy.bits .f32)) wb (constant ⟨2, ![T, d]⟩ .f32 0x00000000#32))
    (broadcastTo ⟨2, ![T, d]⟩ bb R.bcBias))

/-- The tile's contribution to the output: the product contracting the tile's rows. -/
def tContrib (R : Recs T m d) (p : FVec Ideal ⟨2, ![T, m]⟩ .f32) (a : FVec Ideal ⟨2, ![T, d]⟩ .f32) :
    FVec Ideal ⟨2, ![m, d]⟩ .f32 :=
  matmul R.dotOut none (truncf .bf16 p (by decide : FTy.bits .bf16 < FTy.bits .f32)) (truncf .bf16 a (by decide : FTy.bits .bf16 < FTy.bits .f32))
    (constant ⟨2, ![m, d]⟩ .f32 0x00000000#32)

/-- The output block after the tile: what it held plus the tile's contribution. -/
def tStep (R : Recs T m d) (acc : FVec Ideal ⟨2, ![m, d]⟩ .f32) (x : FVec Ideal ⟨2, ![T, d]⟩ .f32)
    (cb : FVec Ideal ⟨2, ![m, d]⟩ .bf16) (cs : FVec Ideal ⟨2, ![1, m]⟩ .f32) (wb : FVec Ideal ⟨2, ![d, d]⟩ .bf16)
    (bb : FVec Ideal ⟨2, ![1, d]⟩ .f32) : FVec Ideal ⟨2, ![m, d]⟩ .f32 :=
  addf acc (tContrib R (tProb R x cb cs) (tAct R x wb bb))

/-- What the dimension numbers must say: each product contracts one axis, of the stated extent, and reads its operands where a
    product of rows against rows (`dotC`, `dotW`: entry `(r, j)` pairs row `r` of the left with row `j` of the right) and a
    product contracting the leading axes (`dotOut`: entry `(j, o)` pairs column `j` of the left with column `o` of the right)
    read them. A literal record proves every clause by evaluation. -/
structure Recs.Good (R : Recs T m d) : Prop where
  cR : R.dotC.contr.rank = 1
  cS : R.dotC.contr.size ⟨0, by omega⟩ = d
  cL0 : ∀ (i : (⟨2, ![T, m]⟩ : Shape).Idx) (q : R.dotC.contr.Idx), (R.dotC.lhsIdx i q 0).val = (i 0).val
  cL1 : ∀ (i : (⟨2, ![T, m]⟩ : Shape).Idx) (q : R.dotC.contr.Idx), (R.dotC.lhsIdx i q 1).val = (q ⟨0, by omega⟩).val
  cR0 : ∀ (i : (⟨2, ![T, m]⟩ : Shape).Idx) (q : R.dotC.contr.Idx), (R.dotC.rhsIdx i q 0).val = (i 1).val
  cR1 : ∀ (i : (⟨2, ![T, m]⟩ : Shape).Idx) (q : R.dotC.contr.Idx), (R.dotC.rhsIdx i q 1).val = (q ⟨0, by omega⟩).val
  wR : R.dotW.contr.rank = 1
  wS : R.dotW.contr.size ⟨0, by omega⟩ = d
  wL0 : ∀ (i : (⟨2, ![T, d]⟩ : Shape).Idx) (q : R.dotW.contr.Idx), (R.dotW.lhsIdx i q 0).val = (i 0).val
  wL1 : ∀ (i : (⟨2, ![T, d]⟩ : Shape).Idx) (q : R.dotW.contr.Idx), (R.dotW.lhsIdx i q 1).val = (q ⟨0, by omega⟩).val
  wR0 : ∀ (i : (⟨2, ![T, d]⟩ : Shape).Idx) (q : R.dotW.contr.Idx), (R.dotW.rhsIdx i q 0).val = (i 1).val
  wR1 : ∀ (i : (⟨2, ![T, d]⟩ : Shape).Idx) (q : R.dotW.contr.Idx), (R.dotW.rhsIdx i q 1).val = (q ⟨0, by omega⟩).val
  oR : R.dotOut.contr.rank = 1
  oS : R.dotOut.contr.size ⟨0, by omega⟩ = T
  oL0 : ∀ (i : (⟨2, ![m, d]⟩ : Shape).Idx) (q : R.dotOut.contr.Idx), (R.dotOut.lhsIdx i q 0).val = (q ⟨0, by omega⟩).val
  oL1 : ∀ (i : (⟨2, ![m, d]⟩ : Shape).Idx) (q : R.dotOut.contr.Idx), (R.dotOut.lhsIdx i q 1).val = (i 0).val
  oR0 : ∀ (i : (⟨2, ![m, d]⟩ : Shape).Idx) (q : R.dotOut.contr.Idx), (R.dotOut.rhsIdx i q 0).val = (q ⟨0, by omega⟩).val
  oR1 : ∀ (i : (⟨2, ![m, d]⟩ : Shape).Idx) (q : R.dotOut.contr.Idx), (R.dotOut.rhsIdx i q 1).val = (i 1).val

/-! ## Reading the pieces at an entry -/

/-- The source index of a sum along the rows' entries: row `r` with the dropped coordinate `k` put back is `(r, k)`. -/
theorem lift_row {a b : ℕ} (h : (⟨2, ![a, b]⟩ : Shape).Reduces [1] ⟨1, ![a]⟩) (r : Fin a) (k : Fin b) :
    h.lift (ix1 r) k = ix2 r k := by
  funext c
  refine Fin.ext ?_
  match c with
  | ⟨0, _⟩ => rfl
  | ⟨1, _⟩ => rfl

/-- A product into the zero block whose dimension numbers contract ONE axis of extent `n`, read at an entry: the sum over
    that axis's coordinate of the operands' products, the operands read where the dimension numbers place them. -/
theorem matmul_one_axis {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (i : so.Idx)
    (li : Fin n → sl.Idx) (ri : Fin n → sr.Idx)
    (hl : ∀ k, D.lhsIdx i ((contrEquiv1 D n hr hs).symm k) = li k)
    (hr' : ∀ k, D.rhsIdx i ((contrEquiv1 D n hr hs).symm k) = ri k) :
    matmul D none lhs rhs (constant so .f32 0x00000000#32) i = ∑ k : Fin n, lhs (li k) * rhs (ri k) := by
  refine (Ideal.matmul_constant_zero_apply D none lhs rhs i).trans ?_
  rw [← Equiv.sum_comp (contrEquiv1 D n hr hs).symm]
  exact Finset.sum_congr rfl fun k _ => by rw [hl k, hr' k]

/-- The tile's contribution at `(j, o)`: the sum over the tile's rows of weight times transformed entry. -/
theorem tContrib_apply (R : Recs T m d) (hR : R.Good) (p : FVec Ideal ⟨2, ![T, m]⟩ .f32) (a : FVec Ideal ⟨2, ![T, d]⟩ .f32)
    (j : Fin m) (o : Fin d) : tContrib R p a (ix2 j o) = ∑ r : Fin T, p (ix2 r j) * a (ix2 r o) := by
  unfold tContrib
  refine (matmul_one_axis R.dotOut T hR.oR hR.oS _ _ (ix2 j o) (fun r => ix2 r j) (fun r => ix2 r o) ?_ ?_).trans ?_
  · intro r
    funext ax
    refine Fin.ext ?_
    match ax with
    | ⟨0, _⟩ => exact (hR.oL0 _ _).trans (contrEquiv1_symm_val _ _ _ _ r)
    | ⟨1, _⟩ => exact hR.oL1 _ _
  · intro r
    funext ax
    refine Fin.ext ?_
    match ax with
    | ⟨0, _⟩ => exact (hR.oR0 _ _).trans (contrEquiv1_symm_val _ _ _ _ r)
    | ⟨1, _⟩ => exact hR.oR1 _ _
  · rfl

/-- A row's sum, kept as a column and spread back over the row, read at `(r, j)`: the sum of row `r`. -/
theorem rowSum_spread_apply (R : Recs T m d) (e : FVec Ideal ⟨2, ![T, m]⟩ .f32) (r : Fin T) (j : Fin m) :
    tDen R e (ix2 r j) = ∑ k : Fin m, e (ix2 r k) := by
  unfold tDen
  refine (Cert.LibColumn.broadcastTo_a1_ab_apply _ R.bcCol r j).trans ?_
  refine (Cert.LibColumn.shapeCast_a_a1_apply _ R.col r (0 : Fin 1)).trans ?_
  refine (Ideal.multiReduction_add_single e 0x00000000#32 R.redZ (.inl rfl) rfl (ix1 r)).trans ?_
  exact Finset.sum_congr rfl fun k _ => congrArg e (lift_row R.redZ r k)

/-- The exponentials at `(r, j)`: the logit there less the largest logit of row `r` (never below `-∞`), exponentiated. -/
theorem tExp_apply (R : Recs T m d) (z : FVec Ideal ⟨2, ![T, m]⟩ .f32) (r : Fin T) (j : Fin m) :
    tExp R z (ix2 r j)
      = Ideal.exp (z (ix2 r j) - max negInf ((Finset.univ : Finset (Fin m)).fold max negInf fun k => z (ix2 r k))) := by
  unfold tExp
  show Ideal.exp (z (ix2 r j) - _) = _
  refine congrArg (fun t => Ideal.exp (z (ix2 r j) - t)) ?_
  refine (Cert.LibColumn.broadcastTo_a1_ab_apply _ R.bcCol r j).trans ?_
  refine (Cert.LibColumn.shapeCast_a_a1_apply _ R.col r (0 : Fin 1)).trans ?_
  show max negInf _ = _
  refine congrArg (max negInf) ?_
  refine (Ideal.multiReduction_maximumf_single z 0xFF800000#32 R.redZ (.inl rfl) rfl (ix1 r)).trans ?_
  refine congrArg (fun f => (Finset.univ : Finset (Fin m)).fold max negInf f) ?_
  funext k
  exact congrArg z (lift_row R.redZ r k)

/-- A row's squared norm, kept as a column and spread over the centers, read at `(r, j)`. -/
theorem rowSq_spread_apply (R : Recs T m d) (x : FVec Ideal ⟨2, ![T, d]⟩ .f32) (r : Fin T) (j : Fin m) :
    broadcastTo ⟨2, ![T, m]⟩ (shapeCast ⟨2, ![T, 1]⟩
        (multiReduction .add [1] ⟨1, ![T]⟩ (mulf x x) 0x00000000#32 R.redX (.inl rfl) rfl) R.col) R.bcCol (ix2 r j)
      = sqn (mat x r) := by
  refine (Cert.LibColumn.broadcastTo_a1_ab_apply _ R.bcCol r j).trans ?_
  refine (Cert.LibColumn.shapeCast_a_a1_apply _ R.col r (0 : Fin 1)).trans ?_
  refine (Ideal.multiReduction_add_single (mulf x x) 0x00000000#32 R.redX (.inl rfl) rfl (ix1 r)).trans ?_
  exact Finset.sum_congr rfl fun k _ => congrArg (mulf x x) (lift_row R.redX r k)

/-- The product of the tile's rows against the centers' rows, read at `(r, j)`: the inner product of row `r` and center `j`. -/
theorem rowsByCenters_apply (R : Recs T m d) (hR : R.Good) (x : FVec Ideal ⟨2, ![T, d]⟩ .f32)
    (cb : FVec Ideal ⟨2, ![m, d]⟩ .bf16) (r : Fin T) (j : Fin m) :
    matmul R.dotC none (truncf .bf16 x (by decide : FTy.bits .bf16 < FTy.bits .f32)) cb
        (constant ⟨2, ![T, m]⟩ .f32 0x00000000#32) (ix2 r j)
      = dot (mat x r) (mat cb j) := by
  refine (matmul_one_axis R.dotC d hR.cR hR.cS _ _ (ix2 r j) (fun k => ix2 r k) (fun k => ix2 j k) ?_ ?_).trans ?_
  · intro k
    funext ax
    refine Fin.ext ?_
    match ax with
    | ⟨0, _⟩ => exact hR.cL0 _ _
    | ⟨1, _⟩ => exact (hR.cL1 _ _).trans (contrEquiv1_symm_val _ _ _ _ k)
  · intro k
    funext ax
    refine Fin.ext ?_
    match ax with
    | ⟨0, _⟩ => exact hR.cR0 _ _
    | ⟨1, _⟩ => exact (hR.cR1 _ _).trans (contrEquiv1_symm_val _ _ _ _ k)
  · rfl

/-- The product of the tile's rows against the weights' rows, read at `(r, o)`: the inner product of row `r` and weight row `o`. -/
theorem rowsByWeights_apply (R : Recs T m d) (hR : R.Good) (x : FVec Ideal ⟨2, ![T, d]⟩ .f32)
    (wb : FVec Ideal ⟨2, ![d, d]⟩ .bf16) (r : Fin T) (o : Fin d) :
    matmul R.dotW none (truncf .bf16 x (by decide : FTy.bits .bf16 < FTy.bits .f32)) wb
        (constant ⟨2, ![T, d]⟩ .f32 0x00000000#32) (ix2 r o)
      = dot (mat x r) (mat wb o) := by
  refine (matmul_one_axis R.dotW d hR.wR hR.wS _ _ (ix2 r o) (fun k => ix2 r k) (fun k => ix2 o k) ?_ ?_).trans ?_
  · intro k
    funext ax
    refine Fin.ext ?_
    match ax with
    | ⟨0, _⟩ => exact hR.wL0 _ _
    | ⟨1, _⟩ => exact (hR.wL1 _ _).trans (contrEquiv1_symm_val _ _ _ _ k)
  · intro k
    funext ax
    refine Fin.ext ?_
    match ax with
    | ⟨0, _⟩ => exact hR.wR0 _ _
    | ⟨1, _⟩ => exact (hR.wR1 _ _).trans (contrEquiv1_symm_val _ _ _ _ k)
  · rfl

/-- The tile's logits at `(r, j)`: row `r`'s logit at center `j`, given that the row of squared norms holds the centers' squared norms. -/
theorem tLogit_apply (R : Recs T m d) (hR : R.Good) (x : FVec Ideal ⟨2, ![T, d]⟩ .f32) (cb : FVec Ideal ⟨2, ![m, d]⟩ .bf16)
    (cs : FVec Ideal ⟨2, ![1, m]⟩ .f32) (hcs : ∀ j : Fin m, cs (ix2 (0 : Fin 1) j) = sqn (mat cb j)) (r : Fin T) (j : Fin m) :
    tLogit R x cb cs (ix2 r j) = logit (mat x r) (mat cb) j := by
  have hA := rowSq_spread_apply R x r j
  have hB := rowsByCenters_apply R hR x cb r j
  have hC : broadcastTo ⟨2, ![T, m]⟩ cs R.bcRow (ix2 r j) = sqn (mat cb j) :=
    (broadcastTo_1b_ab_apply cs R.bcRow r j).trans (hcs j)
  unfold tLogit logit
  show Ideal.div (Ideal.ofBits .f32 0x00000000#32 - ((_ - Ideal.ofBits .f32 0x40000000#32 * _) + _)) (Ideal.ofBits .f32 0x40800000#32) = _
  rw [hA, hB, hC, Ideal.ofBits_zero_f32, zero_sub]

/-- The tile's transformed rows at `(r, o)`: row `r` transformed, at column `o`. -/
theorem tAct_apply (R : Recs T m d) (hR : R.Good) (x : FVec Ideal ⟨2, ![T, d]⟩ .f32) (wb : FVec Ideal ⟨2, ![d, d]⟩ .bf16)
    (bb : FVec Ideal ⟨2, ![1, d]⟩ .f32) (r : Fin T) (o : Fin d) :
    tAct R x wb bb (ix2 r o) = act (mat x r) (mat wb) (fun o' => bb (ix2 (0 : Fin 1) o')) o := by
  have hB := rowsByWeights_apply R hR x wb r o
  have hC : broadcastTo ⟨2, ![T, d]⟩ bb R.bcBias (ix2 r o) = bb (ix2 (0 : Fin 1) o) :=
    broadcastTo_1b_ab_apply bb R.bcBias r o
  unfold tAct act
  show Ideal.tanh (_ + _) = _
  rw [hB, hC]

/-- The tile's softmax weights at `(r, j)`: row `r`'s weight at center `j`. -/
theorem tProb_apply (R : Recs T m d) (hR : R.Good) (x : FVec Ideal ⟨2, ![T, d]⟩ .f32) (cb : FVec Ideal ⟨2, ![m, d]⟩ .bf16)
    (cs : FVec Ideal ⟨2, ![1, m]⟩ .f32) (hcs : ∀ j : Fin m, cs (ix2 (0 : Fin 1) j) = sqn (mat cb j)) (r : Fin T) (j : Fin m) :
    tProb R x cb cs (ix2 r j) = prob (mat x r) (mat cb) j := by
  have hz : ∀ k : Fin m, tLogit R x cb cs (ix2 r k) = logit (mat x r) (mat cb) k :=
    fun k => tLogit_apply R hR x cb cs hcs r k
  have hE : ∀ k : Fin m, tExp R (tLogit R x cb cs) (ix2 r k) = expo (mat x r) (mat cb) k := by
    intro k
    refine (tExp_apply R _ r k).trans ?_
    simp only [hz]
    rfl
  unfold tProb prob
  show Ideal.div (tExp R (tLogit R x cb cs) (ix2 r j)) (tDen R (tExp R (tLogit R x cb cs)) (ix2 r j)) = _
  rw [rowSum_spread_apply, hE j]
  exact congrArg (Ideal.div _) (Finset.sum_congr rfl fun k _ => hE k)

/-- The output block after a tile, at entry `(j, o)`: the old entry plus the tile's rows' contributions — given that the row of squared
    norms the body is handed holds each center's squared norm. -/
theorem tStep_apply (R : Recs T m d) (hR : R.Good) (acc : FVec Ideal ⟨2, ![m, d]⟩ .f32) (x : FVec Ideal ⟨2, ![T, d]⟩ .f32)
    (cb : FVec Ideal ⟨2, ![m, d]⟩ .bf16) (cs : FVec Ideal ⟨2, ![1, m]⟩ .f32) (wb : FVec Ideal ⟨2, ![d, d]⟩ .bf16)
    (bb : FVec Ideal ⟨2, ![1, d]⟩ .f32) (hcs : ∀ j : Fin m, cs (ix2 (0 : Fin 1) j) = sqn (mat cb j)) (j : Fin m) (o : Fin d) :
    tStep R acc x cb cs wb bb (ix2 j o)
      = acc (ix2 j o) + ∑ r : Fin T, term (mat x r) (mat cb) (mat wb) (fun o' => bb (ix2 (0 : Fin 1) o')) j o := by
  unfold tStep
  show acc (ix2 j o) + tContrib R (tProb R x cb cs) (tAct R x wb bb) (ix2 j o) = _
  rw [tContrib_apply R hR]
  refine congrArg (acc (ix2 j o) + ·) (Finset.sum_congr rfl fun r _ => ?_)
  rw [tProb_apply R hR x cb cs hcs r j, tAct_apply R hR x wb bb r o]
  rfl

end Cert.TileLevel

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.Level1.lean ====
/-
  The first level as the first region computes it: 64 tiles of 256 feature rows each, all 2048 centers resident, the output block carried from tile to tile.
  Each tile adds its rows' contributions to the block, the first over a block it has just zeroed, so after the last tile the block — written back once — holds the level's output: every row's contribution, summed.
-/
import proofs.«143953_j12661563588794_1_alg».proof.Proof.TileLevel
import proofs.«143953_j12661563588794_1_alg».proof.Proof.LibBlockSums
import proofs.«143953_j12661563588794_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Level1

open Cert.KernelIdeal Cert.KernelIdeal.Gen Cert.TileLevel Cert.SoftAssign

theorem hz : (![0, 0] : Fin 2 → Nat) = fun _ => 0 := funext fun a => by fin_cases a <;> rfl

/-- This level's shape facts and dimension numbers: tiles of 256 rows of length 1024 against 2048 centers. -/
def recs : Recs 256 2048 1024 where
  redX := reduces_S256x1024_S256
  redZ := reduces_S256x2048_S256
  col := shapeCasts_S256_S256x1
  bcCol := broadcasts_S256x1_S256x2048
  bcRow := broadcasts_S1x2048_S256x2048
  bcBias := broadcasts_S1x1024_S256x1024
  dotC := dot_S256x1024_S2048x1024_S256x2048_1_1_0_0_n_n
  dotW := dot_S256x1024_S1024x1024_S256x1024_1_1_0_0_n_n
  dotOut := dot_S256x2048_S256x1024_S2048x1024_0_0_1_1_n_n

theorem recs_good : recs.Good := by
  constructor <;> first | rfl | (intro _ _; rfl)

/-- The zero block the first tile's reset stores. -/
abbrev zero : FVec Ideal S2048x1024 .f32 := broadcast S2048x1024 (Scalar.ofBits .f32 0x00000000#32)

/-- The body's one accumulating store, as the tile's step: the printed value is `tStep` of the level's records. -/
theorem pay_eq (x0 : Vec Ideal S256x1024 .f32) (x1 : Vec Ideal S2048x1024 .bf16) (x2 : Vec Ideal S1x2048 .f32) (x3 : Vec Ideal S1024x1024 .bf16)
    (x4 : Vec Ideal S1x1024 .f32) (xo : Vec Ideal S2048x1024 .f32) :
    k0_pay1 (F := Ideal) (k0_pay3 x3) (k0_pay4 x4) (k0_pay5 x0) (k0_pay6 x0 x1 x2) xo = tStep recs xo x0 x1 x2 x3 x4 := by
  refine Eq.trans (b := tStep recs (shapeCast S2048x1024 xo shapeCasts_S2048x1024_S2048x1024) x0
    (shapeCast S2048x1024 x1 shapeCasts_S2048x1024_S2048x1024) (shapeCast S1x2048 x2 shapeCasts_S1x2048_S1x2048)
    (shapeCast S1024x1024 x3 shapeCasts_S1024x1024_S1024x1024) (shapeCast S1x1024 x4 shapeCasts_S1x1024_S1x1024)) rfl ?_
  simp only [shapeCast_self]

/-- A later tile (the reset not taken): over the block's running contents `xo` the body leaves `xo` plus the tile's contribution. -/
theorem out_B (c : Dev nD) (i : grid0.Coords) (a1 : Memref sig .tc .vmem S256x1024 .f32) (h1 : a1.IsWhole)
    (a2 : Memref sig .tc .vmem S2048x1024 .bf16) (h2 : a2.IsWhole) (a3 : Memref sig .tc .vmem S1x2048 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc : ¬cond0_0 i)
    (x0 : Vec Ideal S256x1024 .f32) (x1 : Vec Ideal S2048x1024 .bf16) (x2 : Vec Ideal S1x2048 .f32) (x3 : Vec Ideal S1024x1024 .bf16)
    (x4 : Vec Ideal S1x1024 .f32) (xo : Vec Ideal S2048x1024 .f32) :
    out0_B_5 (F := Ideal) c i a1 h1 a2 h2 a3 h3 a4 h4 a5 h5 a6 h6 hc x0 x1 x2 x3 x4 xo = tStep recs xo x0 x1 x2 x3 x4 := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S2048x1024) hz, View.ld_unit_zero (S := S1x2048) hz,
    View.ld_unit_zero (S := S1024x1024) hz, View.ld_unit_zero (S := S1x1024) hz, View.ld_unit_zero (S := S2048x1024) hz]
  exact pay_eq x0 x1 x2 x3 x4 xo

/-- The first tile (the reset taken): the block is zeroed, read back, and left at zero plus the tile's contribution. -/
theorem out_A (c : Dev nD) (i : grid0.Coords) (a1 : Memref sig .tc .vmem S256x1024 .f32) (h1 : a1.IsWhole)
    (a2 : Memref sig .tc .vmem S2048x1024 .bf16) (h2 : a2.IsWhole) (a3 : Memref sig .tc .vmem S1x2048 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc : cond0_0 i)
    (x0 : Vec Ideal S256x1024 .f32) (x1 : Vec Ideal S2048x1024 .bf16) (x2 : Vec Ideal S1x2048 .f32) (x3 : Vec Ideal S1024x1024 .bf16)
    (x4 : Vec Ideal S1x1024 .f32) :
    out0_A_5 (F := Ideal) c i a1 h1 a2 h2 a3 h3 a4 h4 a5 h5 a6 h6 hc x0 x1 x2 x3 x4 = tStep recs zero x0 x1 x2 x3 x4 := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S2048x1024) hz, View.readCov_unit_zero (S := S2048x1024) _ hz]
  simp only [View.readAt_eq_ld, h1.read_unread, h2.read_unread, h3.read_unread, h4.read_unread, h5.read_unread,
    View.ld_unit_zero (S := S256x1024) hz, View.ld_unit_zero (S := S2048x1024) hz, View.ld_unit_zero (S := S1x2048) hz,
    View.ld_unit_zero (S := S1024x1024) hz, View.ld_unit_zero (S := S1x1024) hz, View.ld_unit_zero (S := S2048x1024) hz]
  exact pay_eq x0 x1 x2 x3 x4 zero

/-! ## The tiles' contributions, summed in order -/

section Sum

variable (X : FVec Ideal S16384x1024 .f32) (C : FVec Ideal S2048x1024 .bf16) (CS : FVec Ideal S1x2048 .f32)
  (Wb : FVec Ideal S1024x1024 .bf16) (Bb : FVec Ideal S1x1024 .f32)

/-- What row `r` of the whole feature array contributes to output entry `(j, o)`. -/
def contrib (j : Fin 2048) (o : Fin 1024) : Fin 16384 → EReal :=
  fun r => term (mat X r) (mat C) (mat Wb) (fun o' => Bb (ix2 (0 : Fin 1) o')) j o

/-- One tile's step at an entry: the old entry plus the sum of the contributions of the tile's 256 rows, which are rows
    `256 t, …, 256 t + 255` of the whole array. -/
theorem step_apply (hcs : ∀ j : Fin 2048, CS (ix2 (0 : Fin 1) j) = sqn (mat C j)) (t : ℕ) (ht : t < 64)
    (acc : FVec Ideal S2048x1024 .f32) (x0 : FVec Ideal S256x1024 .f32)
    (hx0 : ∀ (r : Fin 256) (k : Fin 1024), x0 (ix2 r k) = X (ix2 (⟨r.val + 256 * t, by have := r.isLt; omega⟩ : Fin 16384) k))
    (j : Fin 2048) (o : Fin 1024) :
    tStep recs acc x0 C CS Wb Bb (ix2 j o) = acc (ix2 j o) + BlockSums.blockSum 256 (contrib X C Wb Bb j o) t := by
  rw [tStep_apply recs recs_good acc x0 C CS Wb Bb hcs j o, BlockSums.blockSum_eq 256 _ t (by omega)]
  refine congrArg (acc (ix2 j o) + ·) (Finset.sum_congr rfl fun r _ => ?_)
  unfold contrib
  have e : mat x0 r = mat X (⟨r.val + 256 * t, by have := r.isLt; omega⟩ : Fin 16384) := funext fun k => hx0 r k
  rw [e]

end Sum

/-! ## The windows' blocks -/

section Blocks

variable (V : (c : Dev nD) → (b : Ref sig .tc) → Buf (Elt Ideal) ((c : Thread nD τ).loc b))

/-- The feature window's block at point `t` is rows `256 t, …` of its array; every other window's block is its whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk0_apply (c : Dev nD) (t : Fin cfg0.N) (r : Fin 256) (k : Fin 1024) :
    (iblk0 V c 0 t : Vec Ideal S256x1024 .f32) (ix2 r k)
      = V c main_arg0 (ix2 (⟨r.val + 256 * t.val, by have := r.isLt; have := t.isLt; have hN : cfg0.N = 64 := N_0; omega⟩ : Fin 16384) k) := by
  unfold iblk0
  rw [View.read_apply]
  show V c main_arg0 _ = V c main_arg0 _
  refine congrArg (V c main_arg0) (funext fun a => Fin.ext ?_)
  match a with
  | ⟨0, _⟩ => show win0_0.index t 0 * 256 + 1 * r.val = r.val + 256 * t.val; rw [(idx_facts t).1]; omega
  | ⟨1, _⟩ => show win0_0.index t 1 * 1024 + 1 * k.val = k.val; rw [(idx_facts t).2.1]; omega

theorem blk1_eq (c : Dev nD) (t : Fin cfg0.N) : (iblk0 V c 1 t : Vec Ideal S2048x1024 .bf16) = V c main_v0 := by
  funext y
  unfold iblk0
  rw [View.read_apply]
  show V c main_v0 _ = V c main_v0 _
  refine congrArg (V c main_v0) (funext fun a => Fin.ext ?_)
  match a with
  | ⟨0, _⟩ => show win0_1.index t 0 * 2048 + 1 * (y 0).val = (y 0).val; rw [(idx_facts t).2.2.1]; omega
  | ⟨1, _⟩ => show win0_1.index t 1 * 1024 + 1 * (y 1).val = (y 1).val; rw [(idx_facts t).2.2.2.1]; omega

theorem blk2_eq (c : Dev nD) (t : Fin cfg0.N) : (iblk0 V c 2 t : Vec Ideal S1x2048 .f32) = V c main_v4 := by
  funext y
  unfold iblk0
  rw [View.read_apply]
  show V c main_v4 _ = V c main_v4 _
  refine congrArg (V c main_v4) (funext fun a => Fin.ext ?_)
  match a with
  | ⟨0, _⟩ => show win0_2.index t 0 * 1 + 1 * (y 0).val = (y 0).val; rw [(idx_facts t).2.2.2.2.1]; omega
  | ⟨1, _⟩ => show win0_2.index t 1 * 2048 + 1 * (y 1).val = (y 1).val; rw [(idx_facts t).2.2.2.2.2.1]; omega

theorem blk3_eq (c : Dev nD) (t : Fin cfg0.N) : (iblk0 V c 3 t : Vec Ideal S1024x1024 .bf16) = V c main_v1 := by
  funext y
  unfold iblk0
  rw [View.read_apply]
  show V c main_v1 _ = V c main_v1 _
  refine congrArg (V c main_v1) (funext fun a => Fin.ext ?_)
  match a with
  | ⟨0, _⟩ => show win0_3.index t 0 * 1024 + 1 * (y 0).val = (y 0).val; rw [(idx_facts t).2.2.2.2.2.2.1]; omega
  | ⟨1, _⟩ => show win0_3.index t 1 * 1024 + 1 * (y 1).val = (y 1).val; rw [(idx_facts t).2.2.2.2.2.2.2.1]; omega

theorem blk4_eq (c : Dev nD) (t : Fin cfg0.N) : (iblk0 V c 4 t : Vec Ideal S1x1024 .f32) = V c main_v5 := by
  funext y
  unfold iblk0
  rw [View.read_apply]
  show V c main_v5 _ = V c main_v5 _
  refine congrArg (V c main_v5) (funext fun a => Fin.ext ?_)
  match a with
  | ⟨0, _⟩ => show win0_4.index t 0 * 1 + 1 * (y 0).val = (y 0).val; rw [(idx_facts t).2.2.2.2.2.2.2.2.1]; omega
  | ⟨1, _⟩ => show win0_4.index t 1 * 1024 + 1 * (y 1).val = (y 1).val; rw [(idx_facts t).2.2.2.2.2.2.2.2.2.1]; omega

/-! ## The output block, point by point -/

/-- After point `n` the output block holds, at every entry, the contributions of the first `n + 1` tiles summed in order from zero
    — given that the row of squared norms the region is handed holds each center's squared norm. -/
theorem outsAt_apply (c : Dev nD) (hcs : ∀ j : Fin 2048, V c main_v4 (ix2 (0 : Fin 1) j) = sqn (mat (V c main_v0) j)) :
    ∀ (n : ℕ) (hn : n < cfg0.N) (j : Fin 2048) (o : Fin 1024),
      (outsAt0 V c n hn : Vec Ideal S2048x1024 .f32) (ix2 j o)
        = BlockSums.runSum 256 (contrib (V c main_arg0) (V c main_v0) (V c main_v1) (V c main_v5) j o) n
  | 0, hn, j, o => by
    rw [outsAt0_A V c ⟨0, hn⟩ rfl, out_A, blk1_eq, blk2_eq, blk3_eq, blk4_eq]
    rw [step_apply (V c main_arg0) (V c main_v0) (V c main_v4) (V c main_v1) (V c main_v5) hcs 0 (by omega) zero
      (iblk0 V c 0 ⟨0, hn⟩) (fun r k => blk0_apply V c ⟨0, hn⟩ r k) j o, BlockSums.runSum_zero]
    exact congrArg (· + _) Ideal.ofBits_zero_f32
  | n + 1, hn, j, o => by
    have hN : cfg0.N = 64 := N_0
    have hB : ¬(⟨n + 1, hn⟩ : Fin cfg0.N).val % 64 = 0 := by dsimp only; omega
    rw [outsAt0_B V c ⟨n + 1, hn⟩ hB, out_B, blk1_eq, blk2_eq, blk3_eq, blk4_eq]
    rw [step_apply (V c main_arg0) (V c main_v0) (V c main_v4) (V c main_v1) (V c main_v5) hcs (n + 1) (by omega) _
      (iblk0 V c 0 ⟨n + 1, hn⟩) (fun r k => blk0_apply V c ⟨n + 1, hn⟩ r k) j o, BlockSums.runSum_succ]
    exact congrArg (· + _) (outsAt_apply c hcs n (Nat.lt_of_succ_lt hn) j o)

/-- The level's output as contents of the region's result array. -/
def result (c : Dev nD) : Buf (Elt Ideal) ((c : Thread nD τ).loc main_v6) :=
  toArr (level (mat (V c main_arg0)) (mat (V c main_v0)) (mat (V c main_v1)) (fun o' => V c main_v5 (ix2 (0 : Fin 1) o')))

theorem lastLt : 63 < cfg0.N := by rw [show cfg0.N = 64 from N_0]; decide

/-- After the last tile the output block is the level's output: the tiles are all 16384 rows. -/
theorem outsAt_last (c : Dev nD) (hcs : ∀ j : Fin 2048, V c main_v4 (ix2 (0 : Fin 1) j) = sqn (mat (V c main_v0) j)) :
    (outsAt0 V c 63 lastLt : Vec Ideal S2048x1024 .f32) = result V c := by
  refine eq_toArr _ _ fun j o => ?_
  rw [outsAt_apply V c hcs 63 lastLt j o]
  exact BlockSums.runSum_last 64 256 (by decide) (contrib (V c main_arg0) (V c main_v0) (V c main_v1) (V c main_v5) j o)

end Blocks

section Final

variable (V : (c : Dev nD) → (b : Ref sig .tc) → Buf (Elt Ideal) ((c : Thread nD τ).loc b))

/-- The last point of the grid. -/
abbrev tLast : Fin cfg0.N := ⟨63, lastLt⟩

/-- The one write-back, after the last point, writes the level's output: the output window's one block is its whole array. -/
theorem flushed_eq (c : Dev nD) (hcs : ∀ j : Fin 2048, V c main_v4 (ix2 (0 : Fin 1) j) = sqn (mat (V c main_v0) j))
    (t : Fin cfg0.N) (hf : (cfg0.win 5).flush t = true) :
    (dat0 V c).flushed 5 t = ((cfg0.win 5).blk t).view.read (Elt Ideal) (result V c) := by
  have hN : cfg0.N = 64 := N_0
  have h63 : t.val = 63 := by have := (flush0_5 t).mp hf; have := t.isLt; omega
  obtain rfl : t = tLast := Fin.ext h63
  show (cfg0.win 5).cut (grid0.coords tLast) ((dat0 V c).after 5 tLast) = _
  rw [after0_5, outsAt_last V c hcs]
  have hz' : (fun a => win0_5.index tLast a * main_v6.ty.shape.size a) = fun _ => 0 := funext fun a => by fin_cases a <;> decide +kernel
  exact (Memref.read_access_unit_zero (Elt Ideal) main_v6 hz' (fun a => by rw [congrFun hz' a]; simp) (result V c)).symm

/-- So the region's result array ends holding the level's output of the arrays the region was entered with. -/
theorem final (c : Dev nD) (hcs : ∀ j : Fin 2048, V c main_v4 (ix2 (0 : Fin 1) j) = sqn (mat (V c main_v0) j)) :
    (dat0 V c).arrAt 5 cfg0.N = result V c :=
  (dat0 V c).arrAt_eq_of_cover 5 (result V c) (flushed_eq V c hcs) fun i =>
    ⟨tLast, (flush0_5 tLast).mpr rfl, by
      show i ∈ ((View.whole main_v6).slice (win0_5.rect tLast)).set
      rw [View.set_slice_whole, Rect.mem_set_unit]
      intro a
      have h0 : (i 0 : Nat) < 2048 := (i 0).isLt
      have h1 : (i 1 : Nat) < 1024 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 2048 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1024 from by decide +kernel]; omega⟩

end Final

end Cert.KernelIdeal.Level1

end
-- ==== Proof.Level2.lean ====
/-
  The second level as the second region computes it: 8 tiles of 256 rows of the first level's output, all 256 centers resident, the output block carried from tile to tile.
  Each tile adds its rows' contributions to the block, the first over a block it has just zeroed, so after the last tile the block — written back once — holds the level's output.
-/
import proofs.«143953_j12661563588794_1_alg».proof.Proof.TileLevel
import proofs.«143953_j12661563588794_1_alg».proof.Proof.LibBlockSums
import proofs.«143953_j12661563588794_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Level2

open Cert.KernelIdeal Cert.KernelIdeal.Gen Cert.TileLevel Cert.SoftAssign

theorem hz : (![0, 0] : Fin 2 → Nat) = fun _ => 0 := funext fun a => by fin_cases a <;> rfl

/-- This level's shape facts and dimension numbers: tiles of 256 rows of length 1024 against 256 centers. -/
def recs : Recs 256 256 1024 where
  redX := reduces_S256x1024_S256
  redZ := reduces_S256x256_S256
  col := shapeCasts_S256_S256x1
  bcCol := broadcasts_S256x1_S256x256
  bcRow := broadcasts_S1x256_S256x256
  bcBias := broadcasts_S1x1024_S256x1024
  dotC := dot_S256x1024_S256x1024_S256x256_1_1_0_0_n_n
  dotW := dot_S256x1024_S1024x1024_S256x1024_1_1_0_0_n_n
  dotOut := dot_S256x256_S256x1024_S256x1024_0_0_1_1_n_n

theorem recs_good : recs.Good := by
  constructor <;> first | rfl | (intro _ _; rfl)

/-- The zero block the first tile's reset stores. -/
abbrev zero : FVec Ideal S256x1024 .f32 := broadcast S256x1024 (Scalar.ofBits .f32 0x00000000#32)

/-- The body's one accumulating store, as the tile's step: the printed value is `tStep` of the level's records. -/
theorem pay_eq (x0 : Vec Ideal S256x1024 .f32) (x1 : Vec Ideal S256x1024 .bf16) (x2 : Vec Ideal S1x256 .f32) (x3 : Vec Ideal S1024x1024 .bf16)
    (x4 : Vec Ideal S1x1024 .f32) (xo : Vec Ideal S256x1024 .f32) :
    k1_pay1 (F := Ideal) (k1_pay4 x3) (k1_pay5 x4) (k1_pay6 x0) (k1_pay7 x0 x1 x2) (k1_pay8 x0 x1 x2) xo = tStep recs xo x0 x1 x2 x3 x4 := by
  refine Eq.trans (b := tStep recs (shapeCast S256x1024 xo shapeCasts_S256x1024_S256x1024) (shapeCast S256x1024 x0 shapeCasts_S256x1024_S256x1024)
    (shapeCast S256x1024 x1 shapeCasts_S256x1024_S256x1024) (shapeCast S1x256 x2 shapeCasts_S1x256_S1x256)
    (shapeCast S1024x1024 x3 shapeCasts_S1024x1024_S1024x1024) (shapeCast S1x1024 x4 shapeCasts_S1x1024_S1x1024)) rfl ?_
  simp only [shapeCast_self]

/-- A later tile (the reset not taken): over the block's running contents `xo` the body leaves `xo` plus the tile's contribution. -/
theorem out_B (c : Dev nD) (i : grid1.Coords) (a1 : Memref sig .tc .vmem S256x1024 .f32) (h1 : a1.IsWhole)
    (a2 : Memref sig .tc .vmem S256x1024 .bf16) (h2 : a2.IsWhole) (a3 : Memref sig .tc .vmem S1x256 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S256x1024 .f32) (h6 : a6.IsWhole) (hc : ¬cond1_0 i)
    (x0 : Vec Ideal S256x1024 .f32) (x1 : Vec Ideal S256x1024 .bf16) (x2 : Vec Ideal S1x256 .f32) (x3 : Vec Ideal S1024x1024 .bf16)
    (x4 : Vec Ideal S1x1024 .f32) (xo : Vec Ideal S256x1024 .f32) :
    out1_B_5 (F := Ideal) c i a1 h1 a2 h2 a3 h3 a4 h4 a5 h5 a6 h6 hc x0 x1 x2 x3 x4 xo = tStep recs xo x0 x1 x2 x3 x4 := by
  unfold out1_B_5
  rw [View.read_writes_eq_canon _ _ _ (cover1_B_5 c i a1 h1 a2 h2 a3 h3 a4 h4 a5 h5 a6 h6 hc x0 x1 x2 x3 x4 xo)]
  unfold kernelRun1_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S256x1024) hz, View.ld_unit_zero (S := S1x256) hz,
    View.ld_unit_zero (S := S1024x1024) hz, View.ld_unit_zero (S := S1x1024) hz, View.ld_unit_zero (S := S256x1024) hz]
  exact pay_eq x0 x1 x2 x3 x4 xo

/-- The first tile (the reset taken): the block is zeroed, read back, and left at zero plus the tile's contribution. -/
theorem out_A (c : Dev nD) (i : grid1.Coords) (a1 : Memref sig .tc .vmem S256x1024 .f32) (h1 : a1.IsWhole)
    (a2 : Memref sig .tc .vmem S256x1024 .bf16) (h2 : a2.IsWhole) (a3 : Memref sig .tc .vmem S1x256 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S256x1024 .f32) (h6 : a6.IsWhole) (hc : cond1_0 i)
    (x0 : Vec Ideal S256x1024 .f32) (x1 : Vec Ideal S256x1024 .bf16) (x2 : Vec Ideal S1x256 .f32) (x3 : Vec Ideal S1024x1024 .bf16)
    (x4 : Vec Ideal S1x1024 .f32) :
    out1_A_5 (F := Ideal) c i a1 h1 a2 h2 a3 h3 a4 h4 a5 h5 a6 h6 hc x0 x1 x2 x3 x4 = tStep recs zero x0 x1 x2 x3 x4 := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S256x1024) hz, View.readCov_unit_zero (S := S256x1024) _ hz]
  simp only [View.readAt_eq_ld, h1.read_unread, h2.read_unread, h3.read_unread, h4.read_unread, h5.read_unread,
    View.ld_unit_zero (S := S256x1024) hz, View.ld_unit_zero (S := S256x1024) hz, View.ld_unit_zero (S := S1x256) hz,
    View.ld_unit_zero (S := S1024x1024) hz, View.ld_unit_zero (S := S1x1024) hz, View.ld_unit_zero (S := S256x1024) hz]
  exact pay_eq x0 x1 x2 x3 x4 zero

/-! ## The tiles' contributions, summed in order -/

section Sum

variable (X : FVec Ideal S2048x1024 .f32) (C : FVec Ideal S256x1024 .bf16) (CS : FVec Ideal S1x256 .f32)
  (Wb : FVec Ideal S1024x1024 .bf16) (Bb : FVec Ideal S1x1024 .f32)

/-- What row `r` of the whole feature array contributes to output entry `(j, o)`. -/
def contrib (j : Fin 256) (o : Fin 1024) : Fin 2048 → EReal :=
  fun r => term (mat X r) (mat C) (mat Wb) (fun o' => Bb (ix2 (0 : Fin 1) o')) j o

/-- One tile's step at an entry: the old entry plus the sum of the contributions of the tile's 256 rows, which are rows
    `256 t, …, 256 t + 255` of the whole array. -/
theorem step_apply (hcs : ∀ j : Fin 256, CS (ix2 (0 : Fin 1) j) = sqn (mat C j)) (t : ℕ) (ht : t < 8)
    (acc : FVec Ideal S256x1024 .f32) (x0 : FVec Ideal S256x1024 .f32)
    (hx0 : ∀ (r : Fin 256) (k : Fin 1024), x0 (ix2 r k) = X (ix2 (⟨r.val + 256 * t, by have := r.isLt; omega⟩ : Fin 2048) k))
    (j : Fin 256) (o : Fin 1024) :
    tStep recs acc x0 C CS Wb Bb (ix2 j o) = acc (ix2 j o) + BlockSums.blockSum 256 (contrib X C Wb Bb j o) t := by
  rw [tStep_apply recs recs_good acc x0 C CS Wb Bb hcs j o, BlockSums.blockSum_eq 256 _ t (by omega)]
  refine congrArg (acc (ix2 j o) + ·) (Finset.sum_congr rfl fun r _ => ?_)
  unfold contrib
  have e : mat x0 r = mat X (⟨r.val + 256 * t, by have := r.isLt; omega⟩ : Fin 2048) := funext fun k => hx0 r k
  rw [e]

end Sum

/-! ## The windows' blocks -/

section Blocks

variable (V : (c : Dev nD) → (b : Ref sig .tc) → Buf (Elt Ideal) ((c : Thread nD τ).loc b))

/-- The feature window's block at point `t` is rows `256 t, …` of its array; every other window's block is its whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem blk0_apply (c : Dev nD) (t : Fin cfg1.N) (r : Fin 256) (k : Fin 1024) :
    (iblk1 V c 0 t : Vec Ideal S256x1024 .f32) (ix2 r k)
      = V c main_v6 (ix2 (⟨r.val + 256 * t.val, by have := r.isLt; have := t.isLt; have hN : cfg1.N = 8 := N_1; omega⟩ : Fin 2048) k) := by
  unfold iblk1
  rw [View.read_apply]
  show V c main_v6 _ = V c main_v6 _
  refine congrArg (V c main_v6) (funext fun a => Fin.ext ?_)
  match a with
  | ⟨0, _⟩ => show win1_0.index t 0 * 256 + 1 * r.val = r.val + 256 * t.val; rw [(idx_facts t).1]; omega
  | ⟨1, _⟩ => show win1_0.index t 1 * 1024 + 1 * k.val = k.val; rw [(idx_facts t).2.1]; omega

theorem blk1_eq (c : Dev nD) (t : Fin cfg1.N) : (iblk1 V c 1 t : Vec Ideal S256x1024 .bf16) = V c main_v7 := by
  funext y
  unfold iblk1
  rw [View.read_apply]
  show V c main_v7 _ = V c main_v7 _
  refine congrArg (V c main_v7) (funext fun a => Fin.ext ?_)
  match a with
  | ⟨0, _⟩ => show win1_1.index t 0 * 256 + 1 * (y 0).val = (y 0).val; rw [(idx_facts t).2.2.1]; omega
  | ⟨1, _⟩ => show win1_1.index t 1 * 1024 + 1 * (y 1).val = (y 1).val; rw [(idx_facts t).2.2.2.1]; omega

theorem blk2_eq (c : Dev nD) (t : Fin cfg1.N) : (iblk1 V c 2 t : Vec Ideal S1x256 .f32) = V c main_v11 := by
  funext y
  unfold iblk1
  rw [View.read_apply]
  show V c main_v11 _ = V c main_v11 _
  refine congrArg (V c main_v11) (funext fun a => Fin.ext ?_)
  match a with
  | ⟨0, _⟩ => show win1_2.index t 0 * 1 + 1 * (y 0).val = (y 0).val; rw [(idx_facts t).2.2.2.2.1]; omega
  | ⟨1, _⟩ => show win1_2.index t 1 * 256 + 1 * (y 1).val = (y 1).val; rw [(idx_facts t).2.2.2.2.2.1]; omega

theorem blk3_eq (c : Dev nD) (t : Fin cfg1.N) : (iblk1 V c 3 t : Vec Ideal S1024x1024 .bf16) = V c main_v8 := by
  funext y
  unfold iblk1
  rw [View.read_apply]
  show V c main_v8 _ = V c main_v8 _
  refine congrArg (V c main_v8) (funext fun a => Fin.ext ?_)
  match a with
  | ⟨0, _⟩ => show win1_3.index t 0 * 1024 + 1 * (y 0).val = (y 0).val; rw [(idx_facts t).2.2.2.2.2.2.1]; omega
  | ⟨1, _⟩ => show win1_3.index t 1 * 1024 + 1 * (y 1).val = (y 1).val; rw [(idx_facts t).2.2.2.2.2.2.2.1]; omega

theorem blk4_eq (c : Dev nD) (t : Fin cfg1.N) : (iblk1 V c 4 t : Vec Ideal S1x1024 .f32) = V c main_v12 := by
  funext y
  unfold iblk1
  rw [View.read_apply]
  show V c main_v12 _ = V c main_v12 _
  refine congrArg (V c main_v12) (funext fun a => Fin.ext ?_)
  match a with
  | ⟨0, _⟩ => show win1_4.index t 0 * 1 + 1 * (y 0).val = (y 0).val; rw [(idx_facts t).2.2.2.2.2.2.2.2.1]; omega
  | ⟨1, _⟩ => show win1_4.index t 1 * 1024 + 1 * (y 1).val = (y 1).val; rw [(idx_facts t).2.2.2.2.2.2.2.2.2.1]; omega

/-! ## The output block, point by point -/

/-- After point `n` the output block holds, at every entry, the contributions of the first `n + 1` tiles summed in order from zero
    — given that the row of squared norms the region is handed holds each center's squared norm. -/
theorem outsAt_apply (c : Dev nD) (hcs : ∀ j : Fin 256, V c main_v11 (ix2 (0 : Fin 1) j) = sqn (mat (V c main_v7) j)) :
    ∀ (n : ℕ) (hn : n < cfg1.N) (j : Fin 256) (o : Fin 1024),
      (outsAt1 V c n hn : Vec Ideal S256x1024 .f32) (ix2 j o)
        = BlockSums.runSum 256 (contrib (V c main_v6) (V c main_v7) (V c main_v8) (V c main_v12) j o) n
  | 0, hn, j, o => by
    rw [outsAt1_A V c ⟨0, hn⟩ rfl, out_A, blk1_eq, blk2_eq, blk3_eq, blk4_eq]
    rw [step_apply (V c main_v6) (V c main_v7) (V c main_v11) (V c main_v8) (V c main_v12) hcs 0 (by omega) zero
      (iblk1 V c 0 ⟨0, hn⟩) (fun r k => blk0_apply V c ⟨0, hn⟩ r k) j o, BlockSums.runSum_zero]
    exact congrArg (· + _) Ideal.ofBits_zero_f32
  | n + 1, hn, j, o => by
    have hN : cfg1.N = 8 := N_1
    have hB : ¬(⟨n + 1, hn⟩ : Fin cfg1.N).val % 8 = 0 := by dsimp only; omega
    rw [outsAt1_B V c ⟨n + 1, hn⟩ hB, out_B, blk1_eq, blk2_eq, blk3_eq, blk4_eq]
    rw [step_apply (V c main_v6) (V c main_v7) (V c main_v11) (V c main_v8) (V c main_v12) hcs (n + 1) (by omega) _
      (iblk1 V c 0 ⟨n + 1, hn⟩) (fun r k => blk0_apply V c ⟨n + 1, hn⟩ r k) j o, BlockSums.runSum_succ]
    exact congrArg (· + _) (outsAt_apply c hcs n (Nat.lt_of_succ_lt hn) j o)

/-- The level's output as contents of the region's result array. -/
def result (c : Dev nD) : Buf (Elt Ideal) ((c : Thread nD τ).loc main_v13) :=
  toArr (level (mat (V c main_v6)) (mat (V c main_v7)) (mat (V c main_v8)) (fun o' => V c main_v12 (ix2 (0 : Fin 1) o')))

theorem lastLt : 7 < cfg1.N := by rw [show cfg1.N = 8 from N_1]; decide

/-- After the last tile the output block is the level's output: the tiles are all 2048 rows. -/
theorem outsAt_last (c : Dev nD) (hcs : ∀ j : Fin 256, V c main_v11 (ix2 (0 : Fin 1) j) = sqn (mat (V c main_v7) j)) :
    (outsAt1 V c 7 lastLt : Vec Ideal S256x1024 .f32) = result V c := by
  refine eq_toArr _ _ fun j o => ?_
  rw [outsAt_apply V c hcs 7 lastLt j o]
  exact BlockSums.runSum_last 8 256 (by decide) (contrib (V c main_v6) (V c main_v7) (V c main_v8) (V c main_v12) j o)

end Blocks

section Final

variable (V : (c : Dev nD) → (b : Ref sig .tc) → Buf (Elt Ideal) ((c : Thread nD τ).loc b))

/-- The last point of the grid. -/
abbrev tLast : Fin cfg1.N := ⟨7, lastLt⟩

/-- The one write-back, after the last point, writes the level's output: the output window's one block is its whole array. -/
theorem flushed_eq (c : Dev nD) (hcs : ∀ j : Fin 256, V c main_v11 (ix2 (0 : Fin 1) j) = sqn (mat (V c main_v7) j))
    (t : Fin cfg1.N) (hf : (cfg1.win 5).flush t = true) :
    (dat1 V c).flushed 5 t = ((cfg1.win 5).blk t).view.read (Elt Ideal) (result V c) := by
  have hN : cfg1.N = 8 := N_1
  have h63 : t.val = 7 := by have := (flush1_5 t).mp hf; have := t.isLt; omega
  obtain rfl : t = tLast := Fin.ext h63
  show (cfg1.win 5).cut (grid1.coords tLast) ((dat1 V c).after 5 tLast) = _
  rw [after1_5, outsAt_last V c hcs]
  have hz' : (fun a => win1_5.index tLast a * main_v13.ty.shape.size a) = fun _ => 0 := funext fun a => by fin_cases a <;> decide +kernel
  exact (Memref.read_access_unit_zero (Elt Ideal) main_v13 hz' (fun a => by rw [congrFun hz' a]; simp) (result V c)).symm

/-- So the region's result array ends holding the level's output of the arrays the region was entered with. -/
theorem final (c : Dev nD) (hcs : ∀ j : Fin 256, V c main_v11 (ix2 (0 : Fin 1) j) = sqn (mat (V c main_v7) j)) :
    (dat1 V c).arrAt 5 cfg1.N = result V c :=
  (dat1 V c).arrAt_eq_of_cover 5 (result V c) (flushed_eq V c hcs) fun i =>
    ⟨tLast, (flush1_5 tLast).mpr rfl, by
      show i ∈ ((View.whole main_v13).slice (win1_5.rect tLast)).set
      rw [View.set_slice_whole, Rect.mem_set_unit]
      intro a
      have h0 : (i 0 : Nat) < 256 := (i 0).isLt
      have h1 : (i 1 : Nat) < 1024 := (i 1).isLt
      match a with
      | ⟨0, _⟩ => show win1_5.index tLast 0 * win1_5.size 0 ≤ (i 0 : Nat) ∧ (i 0 : Nat) < win1_5.index tLast 0 * win1_5.size 0 + win1_5.xsize (grid1.coords tLast) 0
                  rw [show win1_5.index tLast 0 * win1_5.size 0 = 0 from by decide +kernel, show win1_5.xsize (grid1.coords tLast) 0 = 256 from by decide +kernel]; omega
      | ⟨1, _⟩ => show win1_5.index tLast 1 * win1_5.size 1 ≤ (i 1 : Nat) ∧ (i 1 : Nat) < win1_5.index tLast 1 * win1_5.size 1 + win1_5.xsize (grid1.coords tLast) 1
                  rw [show win1_5.index tLast 1 * win1_5.size 1 = 0 from by decide +kernel, show win1_5.xsize (grid1.coords tLast) 1 = 1024 from by decide +kernel]; omega⟩

end Final

end Cert.KernelIdeal.Level2

end
-- ==== Proof.Level3.lean ====
/-
  The third level as the third region computes it: one tile holding all 256 rows of the second level's output, all 32 centers resident.
  The one point zeroes the output block and adds the tile's rows' contributions, so the block — written back once — holds the level's output.
-/
import proofs.«143953_j12661563588794_1_alg».proof.Proof.TileLevel
import proofs.«143953_j12661563588794_1_alg».proof.Proof.LibBlockSums
import proofs.«143953_j12661563588794_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Level3

open Cert.KernelIdeal Cert.KernelIdeal.Gen Cert.TileLevel Cert.SoftAssign

theorem hz : (![0, 0] : Fin 2 → Nat) = fun _ => 0 := funext fun a => by fin_cases a <;> rfl

/-- This level's shape facts and dimension numbers: tiles of 256 rows of length 1024 against 32 centers. -/
def recs : Recs 256 32 1024 where
  redX := reduces_S256x1024_S256
  redZ := reduces_S256x32_S256
  col := shapeCasts_S256_S256x1
  bcCol := broadcasts_S256x1_S256x32
  bcRow := broadcasts_S1x32_S256x32
  bcBias := broadcasts_S1x1024_S256x1024
  dotC := dot_S256x1024_S32x1024_S256x32_1_1_0_0_n_n
  dotW := dot_S256x1024_S1024x1024_S256x1024_1_1_0_0_n_n
  dotOut := dot_S256x32_S256x1024_S32x1024_0_0_1_1_n_n

theorem recs_good : recs.Good := by
  constructor <;> first | rfl | (intro _ _; rfl)

/-- The zero block the first tile's reset stores. -/
abbrev zero : FVec Ideal S32x1024 .f32 := broadcast S32x1024 (Scalar.ofBits .f32 0x00000000#32)

/-- The body's one accumulating store, as the tile's step: the printed value is `tStep` of the level's records. -/
theorem pay_eq (x0 : Vec Ideal S256x1024 .f32) (x1 : Vec Ideal S32x1024 .bf16) (x2 : Vec Ideal S1x32 .f32) (x3 : Vec Ideal S1024x1024 .bf16)
    (x4 : Vec Ideal S1x1024 .f32) (xo : Vec Ideal S32x1024 .f32) :
    k2_pay1 (F := Ideal) (k2_pay4 x3) (k2_pay5 x4) (k2_pay6 x0) (k2_pay7 x0 x1 x2) (k2_pay8 x0 x1 x2) xo = tStep recs xo x0 x1 x2 x3 x4 := by
  refine Eq.trans (b := tStep recs (shapeCast S32x1024 xo shapeCasts_S32x1024_S32x1024) (shapeCast S256x1024 x0 shapeCasts_S256x1024_S256x1024)
    (shapeCast S32x1024 x1 shapeCasts_S32x1024_S32x1024) (shapeCast S1x32 x2 shapeCasts_S1x32_S1x32)
    (shapeCast S1024x1024 x3 shapeCasts_S1024x1024_S1024x1024) (shapeCast S1x1024 x4 shapeCasts_S1x1024_S1x1024)) rfl ?_
  simp only [shapeCast_self]

/-- The first tile (the reset taken): the block is zeroed, read back, and left at zero plus the tile's contribution. -/
theorem out_A (c : Dev nD) (i : grid2.Coords) (a1 : Memref sig .tc .vmem S256x1024 .f32) (h1 : a1.IsWhole)
    (a2 : Memref sig .tc .vmem S32x1024 .bf16) (h2 : a2.IsWhole) (a3 : Memref sig .tc .vmem S1x32 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S32x1024 .f32) (h6 : a6.IsWhole) (hc : cond2_0 i)
    (x0 : Vec Ideal S256x1024 .f32) (x1 : Vec Ideal S32x1024 .bf16) (x2 : Vec Ideal S1x32 .f32) (x3 : Vec Ideal S1024x1024 .bf16)
    (x4 : Vec Ideal S1x1024 .f32) :
    out2_A_5 (F := Ideal) c i a1 h1 a2 h2 a3 h3 a4 h4 a5 h5 a6 h6 hc x0 x1 x2 x3 x4 = tStep recs zero x0 x1 x2 x3 x4 := by
  unfold out2_A_5
  rw [View.read_writes_eq_canon _ _ _ (cover2_A_5 c i a1 h1 a2 h2 a3 h3 a4 h4 a5 h5 a6 h6 hc x0 x1 x2 x3 x4)]
  unfold kernelRun2_A
  dsimp only
  sl_unfold_words
  rw [View.canon_cons_unit_zero (S := S32x1024) hz, View.readCov_unit_zero (S := S32x1024) _ hz]
  simp only [View.readAt_eq_ld, h1.read_unread, h2.read_unread, h3.read_unread, h4.read_unread, h5.read_unread,
    View.ld_unit_zero (S := S256x1024) hz, View.ld_unit_zero (S := S32x1024) hz, View.ld_unit_zero (S := S1x32) hz,
    View.ld_unit_zero (S := S1024x1024) hz, View.ld_unit_zero (S := S1x1024) hz, View.ld_unit_zero (S := S32x1024) hz]
  exact pay_eq x0 x1 x2 x3 x4 zero

/-! ## The tiles' contributions, summed in order -/

section Sum

variable (X : FVec Ideal S256x1024 .f32) (C : FVec Ideal S32x1024 .bf16) (CS : FVec Ideal S1x32 .f32)
  (Wb : FVec Ideal S1024x1024 .bf16) (Bb : FVec Ideal S1x1024 .f32)

/-- What row `r` of the whole feature array contributes to output entry `(j, o)`. -/
def contrib (j : Fin 32) (o : Fin 1024) : Fin 256 → EReal :=
  fun r => term (mat X r) (mat C) (mat Wb) (fun o' => Bb (ix2 (0 : Fin 1) o')) j o

/-- One tile's step at an entry: the old entry plus the sum of the contributions of the tile's 256 rows, which are rows
    `256 t, …, 256 t + 255` of the whole array. -/
theorem step_apply (hcs : ∀ j : Fin 32, CS (ix2 (0 : Fin 1) j) = sqn (mat C j)) (t : ℕ) (ht : t < 1)
    (acc : FVec Ideal S32x1024 .f32) (x0 : FVec Ideal S256x1024 .f32)
    (hx0 : ∀ (r : Fin 256) (k : Fin 1024), x0 (ix2 r k) = X (ix2 (⟨r.val + 256 * t, by have := r.isLt; omega⟩ : Fin 256) k))
    (j : Fin 32) (o : Fin 1024) :
    tStep recs acc x0 C CS Wb Bb (ix2 j o) = acc (ix2 j o) + BlockSums.blockSum 256 (contrib X C Wb Bb j o) t := by
  rw [tStep_apply recs recs_good acc x0 C CS Wb Bb hcs j o, BlockSums.blockSum_eq 256 _ t (by omega)]
  refine congrArg (acc (ix2 j o) + ·) (Finset.sum_congr rfl fun r _ => ?_)
  unfold contrib
  have e : mat x0 r = mat X (⟨r.val + 256 * t, by have := r.isLt; omega⟩ : Fin 256) := funext fun k => hx0 r k
  rw [e]

end Sum

/-! ## The windows' blocks -/

section Blocks

variable (V : (c : Dev nD) → (b : Ref sig .tc) → Buf (Elt Ideal) ((c : Thread nD τ).loc b))

/-- The feature window's block at point `t` is rows `256 t, …` of its array; every other window's block is its whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 2) = 0 ∧ win2_2.index t (1 : Fin 2) = 0
    ∧ win2_3.index t (0 : Fin 2) = 0 ∧ win2_3.index t (1 : Fin 2) = 0 ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem blk0_apply (c : Dev nD) (t : Fin cfg2.N) (r : Fin 256) (k : Fin 1024) :
    (iblk2 V c 0 t : Vec Ideal S256x1024 .f32) (ix2 r k)
      = V c main_v13 (ix2 (⟨r.val + 256 * t.val, by have := r.isLt; have := t.isLt; have hN : cfg2.N = 1 := N_2; omega⟩ : Fin 256) k) := by
  unfold iblk2
  rw [View.read_apply]
  show V c main_v13 _ = V c main_v13 _
  refine congrArg (V c main_v13) (funext fun a => Fin.ext ?_)
  match a with
  | ⟨0, _⟩ => show win2_0.index t 0 * 256 + 1 * r.val = r.val + 256 * t.val; rw [(idx_facts t).1]; omega
  | ⟨1, _⟩ => show win2_0.index t 1 * 1024 + 1 * k.val = k.val; rw [(idx_facts t).2.1]; omega

theorem blk1_eq (c : Dev nD) (t : Fin cfg2.N) : (iblk2 V c 1 t : Vec Ideal S32x1024 .bf16) = V c main_v14 := by
  funext y
  unfold iblk2
  rw [View.read_apply]
  show V c main_v14 _ = V c main_v14 _
  refine congrArg (V c main_v14) (funext fun a => Fin.ext ?_)
  match a with
  | ⟨0, _⟩ => show win2_1.index t 0 * 32 + 1 * (y 0).val = (y 0).val; rw [(idx_facts t).2.2.1]; omega
  | ⟨1, _⟩ => show win2_1.index t 1 * 1024 + 1 * (y 1).val = (y 1).val; rw [(idx_facts t).2.2.2.1]; omega

theorem blk2_eq (c : Dev nD) (t : Fin cfg2.N) : (iblk2 V c 2 t : Vec Ideal S1x32 .f32) = V c main_v18 := by
  funext y
  unfold iblk2
  rw [View.read_apply]
  show V c main_v18 _ = V c main_v18 _
  refine congrArg (V c main_v18) (funext fun a => Fin.ext ?_)
  match a with
  | ⟨0, _⟩ => show win2_2.index t 0 * 1 + 1 * (y 0).val = (y 0).val; rw [(idx_facts t).2.2.2.2.1]; omega
  | ⟨1, _⟩ => show win2_2.index t 1 * 32 + 1 * (y 1).val = (y 1).val; rw [(idx_facts t).2.2.2.2.2.1]; omega

theorem blk3_eq (c : Dev nD) (t : Fin cfg2.N) : (iblk2 V c 3 t : Vec Ideal S1024x1024 .bf16) = V c main_v15 := by
  funext y
  unfold iblk2
  rw [View.read_apply]
  show V c main_v15 _ = V c main_v15 _
  refine congrArg (V c main_v15) (funext fun a => Fin.ext ?_)
  match a with
  | ⟨0, _⟩ => show win2_3.index t 0 * 1024 + 1 * (y 0).val = (y 0).val; rw [(idx_facts t).2.2.2.2.2.2.1]; omega
  | ⟨1, _⟩ => show win2_3.index t 1 * 1024 + 1 * (y 1).val = (y 1).val; rw [(idx_facts t).2.2.2.2.2.2.2.1]; omega

theorem blk4_eq (c : Dev nD) (t : Fin cfg2.N) : (iblk2 V c 4 t : Vec Ideal S1x1024 .f32) = V c main_v19 := by
  funext y
  unfold iblk2
  rw [View.read_apply]
  show V c main_v19 _ = V c main_v19 _
  refine congrArg (V c main_v19) (funext fun a => Fin.ext ?_)
  match a with
  | ⟨0, _⟩ => show win2_4.index t 0 * 1 + 1 * (y 0).val = (y 0).val; rw [(idx_facts t).2.2.2.2.2.2.2.2.1]; omega
  | ⟨1, _⟩ => show win2_4.index t 1 * 1024 + 1 * (y 1).val = (y 1).val; rw [(idx_facts t).2.2.2.2.2.2.2.2.2.1]; omega

/-! ## The output block, point by point -/

/-- The level's output as contents of the region's result array. -/
def result (c : Dev nD) : Buf (Elt Ideal) ((c : Thread nD τ).loc main_v20) :=
  toArr (level (mat (V c main_v13)) (mat (V c main_v14)) (mat (V c main_v15)) (fun o' => V c main_v19 (ix2 (0 : Fin 1) o')))

theorem lastLt : 0 < cfg2.N := by rw [show cfg2.N = 1 from N_2]; decide

/-- The grid has one point, whose tile is all 256 rows: after it the output block is the level's output. -/
theorem outsAt_last (c : Dev nD) (hcs : ∀ j : Fin 32, V c main_v18 (ix2 (0 : Fin 1) j) = sqn (mat (V c main_v14) j)) :
    (outsAt2 V c ⟨0, lastLt⟩ : Vec Ideal S32x1024 .f32) = result V c := by
  refine eq_toArr _ _ fun j o => ?_
  unfold outsAt2
  rw [out_A, blk1_eq, blk2_eq, blk3_eq, blk4_eq]
  rw [step_apply (V c main_v13) (V c main_v14) (V c main_v18) (V c main_v15) (V c main_v19) hcs 0 (by omega) zero
    (iblk2 V c 0 ⟨0, lastLt⟩) (fun r k => blk0_apply V c ⟨0, lastLt⟩ r k) j o]
  refine Eq.trans ?_ (BlockSums.runSum_last 1 256 (by decide) (contrib (V c main_v13) (V c main_v14) (V c main_v15) (V c main_v19) j o))
  show zero (ix2 j o) + _ = 0 + BlockSums.blockSum 256 _ 0
  exact congrArg (· + _) Ideal.ofBits_zero_f32

end Blocks

section Final

variable (V : (c : Dev nD) → (b : Ref sig .tc) → Buf (Elt Ideal) ((c : Thread nD τ).loc b))

/-- The last point of the grid. -/
abbrev tLast : Fin cfg2.N := ⟨0, lastLt⟩

/-- The one write-back, after the last point, writes the level's output: the output window's one block is its whole array. -/
theorem flushed_eq (c : Dev nD) (hcs : ∀ j : Fin 32, V c main_v18 (ix2 (0 : Fin 1) j) = sqn (mat (V c main_v14) j))
    (t : Fin cfg2.N) (hf : (cfg2.win 5).flush t = true) :
    (dat2 V c).flushed 5 t = ((cfg2.win 5).blk t).view.read (Elt Ideal) (result V c) := by
  have hN : cfg2.N = 1 := N_2
  have h63 : t.val = 0 := by have := t.isLt; omega
  obtain rfl : t = tLast := Fin.ext h63
  show (cfg2.win 5).cut (grid2.coords tLast) ((dat2 V c).after 5 tLast) = _
  rw [after2_5, outsAt_last V c hcs]
  have hz' : (fun a => win2_5.index tLast a * main_v20.ty.shape.size a) = fun _ => 0 := funext fun a => by fin_cases a <;> decide +kernel
  exact (Memref.read_access_unit_zero (Elt Ideal) main_v20 hz' (fun a => by rw [congrFun hz' a]; simp) (result V c)).symm

/-- So the region's result array ends holding the level's output of the arrays the region was entered with. -/
theorem final (c : Dev nD) (hcs : ∀ j : Fin 32, V c main_v18 (ix2 (0 : Fin 1) j) = sqn (mat (V c main_v14) j)) :
    (dat2 V c).arrAt 5 cfg2.N = result V c :=
  (dat2 V c).arrAt_eq_of_cover 5 (result V c) (flushed_eq V c hcs) fun i =>
    ⟨tLast, flush2_5 tLast, by
      show i ∈ ((View.whole main_v20).slice (win2_5.rect tLast)).set
      rw [View.set_slice_whole, Rect.mem_set_unit]
      intro a
      have h0 : (i 0 : Nat) < 32 := (i 0).isLt
      have h1 : (i 1 : Nat) < 1024 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 32 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 1024 from by decide +kernel]; omega⟩

end Final

end Cert.KernelIdeal.Level3

end
-- ==== Proof.HostGlue.lean ====
/-
  What the host operations before each region leave in the buffers the region reads, whatever the buffers held before.

  Each of the three stretches is the same seven operations at its level's extents: the centers and the weights change format only,
  which at the extended reals changes nothing; the centers are squared entry by entry, each row summed from zero, and the sums laid
  out as one row, so that row holds each center's squared norm; the bias vector is laid out as one row; and no other buffer is written.
-/
import proofs.«143953_j12661563588794_1_alg».proof.Proof.Spec
import proofs.«143953_j12661563588794_1_alg».proof.Proof.TileLevel
import proofs.«143953_j12661563588794_1_alg».proof.Proof.Gen.KernelIdeal.Launch
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

namespace Cert.KernelIdeal.HostGlue

open Cert.KernelIdeal Cert.KernelIdeal.Gen Cert.SoftAssign
open Idealize.ShloMosaic Idealize.ShloMosaic.TcCoe Idealize.SL.Sem Idealize.ShloMosaic.ValueIdx
open scoped BigOperators

/-! ## The two layouts read at an entry, general in the extents -/

/-- The rows of an array squared entry by entry, each row summed from zero, the sums laid out as one row: at `(0, j)` the squared
    norm of row `j`. -/
theorem sqnRow_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (hb : (⟨1, ![a]⟩ : Shape).BroadcastsInDim ⟨2, ![1, a]⟩ (![1] : Fin 1 → Fin 2)) (j : Fin a) :
    broadcastInDim ⟨2, ![1, a]⟩ ![1] hb
        (Host.reduceAdd (F := Ideal) (mulf x x) (constant (F := Ideal) ⟨0, ![]⟩ .f32 0x00000000#32) h' hu) (ix2 (0 : Fin 1) j)
      = sqn (mat x j) := by
  refine (broadcastInDim_apply ![1] hb _ (ix2 (0 : Fin 1) j) (ix1 j) fun ax => ?_).trans ?_
  · match ax with
    | ⟨0, _⟩ =>
      show j.val = if a = 1 then 0 else j.val
      split
      · have := j.isLt; omega
      · rfl
  · refine (hostReduceAdd_apply _ _ h' hu (ix1 j)).trans ?_
    refine (Ideal.hostReduceAdd_single h' h _ _ (ix1 j)).trans ?_
    show Ideal.ofBits .f32 0x00000000#32 + _ = _
    rw [Ideal.ofBits_zero_f32, zero_add]
    exact Finset.sum_congr rfl fun k _ => congrArg (mulf x x) (Cert.TileLevel.lift_row h j k)

/-- A vector laid out as one row: at `(0, o)` the vector's entry `o`. -/
theorem rowOf_apply {a : ℕ} (x : (⟨1, ![a]⟩ : Shape).Idx → EReal) (h : (⟨1, ![a]⟩ : Shape).ShapeCasts ⟨2, ![1, a]⟩) :
    (fun o : Fin a => shapeCast ⟨2, ![1, a]⟩ x h (ix2 (0 : Fin 1) o)) = vec x :=
  funext fun o => shapeCast_a_1a_apply x h (0 : Fin 1) o

/-! ## The stretch before the first region -/

section Stretch0

variable (W : Valuation τ sig (Elt Ideal))

/-- The references the first stretch writes. -/
abbrev written0 : List (Ref sig .tc) := [main_v0, main_v1, main_v2, main_cst, main_v3, main_v4, main_v5]

theorem writes0 : (hostOps0 : List (HloOp τ sig (Elt Ideal))).Forall fun op =>
    op.writes ⊆ (written0.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer the first stretch does not write keeps its contents. -/
theorem keep0 (r : Ref sig .tc) (hr : r ∉ written0) :
    StableHlo.after hostOps0 W (Proc.devRef .tc r) = W (Proc.devRef .tc r) :=
  StableHlo.after_of_writes_sub hostOps0 W writes0 hr

/-- The centers the first region reads are the first centers, entry by entry. -/
theorem centers0 : mat (StableHlo.after hostOps0 W (Proc.devRef .tc main_v0)) = mat (W (Proc.devRef .tc main_arg1)) := by
  have e : @Eq (FVec Ideal S2048x1024 .bf16) (StableHlo.after hostOps0 W (Proc.devRef .tc main_v0))
      (truncf .bf16 (W (Proc.devRef .tc main_arg1) : FVec Ideal S2048x1024 .f32) bitsLt_bf16_f32) := by
    after_results <;> rfl
  rw [e]; rfl

/-- The weights the first region reads are the first weights, entry by entry. -/
theorem weights0 : mat (StableHlo.after hostOps0 W (Proc.devRef .tc main_v1)) = mat (W (Proc.devRef .tc main_arg4)) := by
  have e : @Eq (FVec Ideal S1024x1024 .bf16) (StableHlo.after hostOps0 W (Proc.devRef .tc main_v1))
      (truncf .bf16 (W (Proc.devRef .tc main_arg4) : FVec Ideal S1024x1024 .f32) bitsLt_bf16_f32) := by
    after_results <;> rfl
  rw [e]; rfl

/-- The row of squared norms the first region reads holds each first center's squared norm. -/
theorem sqnorms0 (j : Fin 2048) :
    StableHlo.after hostOps0 W (Proc.devRef .tc main_v4) (ix2 (0 : Fin 1) j) = sqn (mat (W (Proc.devRef .tc main_arg1)) j) := by
  have e : StableHlo.after hostOps0 W (Proc.devRef .tc main_v4)
      = broadcastInDim S1x2048 ![1] bcast_S2048_S1x2048_1
          (Host.reduceAdd (F := Ideal) (mulf (W (Proc.devRef .tc main_arg1) : FVec Ideal S2048x1024 .f32) (W (Proc.devRef .tc main_arg1)))
            (constant (F := Ideal) S_ .f32 0x00000000#32) reducesTo_S2048x1024_S2048_d1 h_S_) := by
    after_results <;> rfl
  rw [e]
  exact sqnRow_apply _ reducesTo_S2048x1024_S2048_d1 (by decide) h_S_ bcast_S2048_S1x2048_1 j

/-- The bias row the first region reads is the first bias. -/
theorem bias0 : (fun o : Fin 1024 => StableHlo.after hostOps0 W (Proc.devRef .tc main_v5) (ix2 (0 : Fin 1) o))
    = vec (W (Proc.devRef .tc main_arg5)) := by
  have e : StableHlo.after hostOps0 W (Proc.devRef .tc main_v5)
      = shapeCast S1x1024 (W (Proc.devRef .tc main_arg5) : (S1024 : Shape).Idx → EReal) shapeCasts_S1024_S1x1024 := by
    after_results <;> rfl
  rw [e]
  exact rowOf_apply _ shapeCasts_S1024_S1x1024

end Stretch0

/-! ## The stretch before the second region -/

section Stretch1

variable (W : Valuation τ sig (Elt Ideal))

/-- The references the second stretch writes. -/
abbrev written1 : List (Ref sig .tc) := [main_v7, main_v8, main_v9, main_cst_0, main_v10, main_v11, main_v12]

theorem writes1 : (hostOps1 : List (HloOp τ sig (Elt Ideal))).Forall fun op =>
    op.writes ⊆ (written1.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer the second stretch does not write keeps its contents. -/
theorem keep1 (r : Ref sig .tc) (hr : r ∉ written1) :
    StableHlo.after hostOps1 W (Proc.devRef .tc r) = W (Proc.devRef .tc r) :=
  StableHlo.after_of_writes_sub hostOps1 W writes1 hr

/-- The centers the second region reads are the second centers, entry by entry. -/
theorem centers1 : mat (StableHlo.after hostOps1 W (Proc.devRef .tc main_v7)) = mat (W (Proc.devRef .tc main_arg2)) := by
  have e : @Eq (FVec Ideal S256x1024 .bf16) (StableHlo.after hostOps1 W (Proc.devRef .tc main_v7))
      (truncf .bf16 (W (Proc.devRef .tc main_arg2) : FVec Ideal S256x1024 .f32) bitsLt_bf16_f32) := by
    after_results <;> rfl
  rw [e]; rfl

/-- The weights the second region reads are the second weights, entry by entry. -/
theorem weights1 : mat (StableHlo.after hostOps1 W (Proc.devRef .tc main_v8)) = mat (W (Proc.devRef .tc main_arg6)) := by
  have e : @Eq (FVec Ideal S1024x1024 .bf16) (StableHlo.after hostOps1 W (Proc.devRef .tc main_v8))
      (truncf .bf16 (W (Proc.devRef .tc main_arg6) : FVec Ideal S1024x1024 .f32) bitsLt_bf16_f32) := by
    after_results <;> rfl
  rw [e]; rfl

/-- The row of squared norms the second region reads holds each second center's squared norm. -/
theorem sqnorms1 (j : Fin 256) :
    StableHlo.after hostOps1 W (Proc.devRef .tc main_v11) (ix2 (0 : Fin 1) j) = sqn (mat (W (Proc.devRef .tc main_arg2)) j) := by
  have e : StableHlo.after hostOps1 W (Proc.devRef .tc main_v11)
      = broadcastInDim S1x256 ![1] bcast_S256_S1x256_1
          (Host.reduceAdd (F := Ideal) (mulf (W (Proc.devRef .tc main_arg2) : FVec Ideal S256x1024 .f32) (W (Proc.devRef .tc main_arg2)))
            (constant (F := Ideal) S_ .f32 0x00000000#32) reducesTo_S256x1024_S256_d1 h_S_) := by
    after_results <;> rfl
  rw [e]
  exact sqnRow_apply _ reducesTo_S256x1024_S256_d1 (by decide) h_S_ bcast_S256_S1x256_1 j

/-- The bias row the second region reads is the second bias. -/
theorem bias1 : (fun o : Fin 1024 => StableHlo.after hostOps1 W (Proc.devRef .tc main_v12) (ix2 (0 : Fin 1) o))
    = vec (W (Proc.devRef .tc main_arg7)) := by
  have e : StableHlo.after hostOps1 W (Proc.devRef .tc main_v12)
      = shapeCast S1x1024 (W (Proc.devRef .tc main_arg7) : (S1024 : Shape).Idx → EReal) shapeCasts_S1024_S1x1024 := by
    after_results <;> rfl
  rw [e]
  exact rowOf_apply _ shapeCasts_S1024_S1x1024

end Stretch1

/-! ## The stretch before the third region -/

section Stretch2

variable (W : Valuation τ sig (Elt Ideal))

/-- The references the third stretch writes. -/
abbrev written2 : List (Ref sig .tc) := [main_v14, main_v15, main_v16, main_cst_1, main_v17, main_v18, main_v19]

theorem writes2 : (hostOps2 : List (HloOp τ sig (Elt Ideal))).Forall fun op =>
    op.writes ⊆ (written2.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)

/-- A buffer the third stretch does not write keeps its contents. -/
theorem keep2 (r : Ref sig .tc) (hr : r ∉ written2) :
    StableHlo.after hostOps2 W (Proc.devRef .tc r) = W (Proc.devRef .tc r) :=
  StableHlo.after_of_writes_sub hostOps2 W writes2 hr

/-- The centers the third region reads are the third centers, entry by entry. -/
theorem centers2 : mat (StableHlo.after hostOps2 W (Proc.devRef .tc main_v14)) = mat (W (Proc.devRef .tc main_arg3)) := by
  have e : @Eq (FVec Ideal S32x1024 .bf16) (StableHlo.after hostOps2 W (Proc.devRef .tc main_v14))
      (truncf .bf16 (W (Proc.devRef .tc main_arg3) : FVec Ideal S32x1024 .f32) bitsLt_bf16_f32) := by
    after_results <;> rfl
  rw [e]; rfl

/-- The weights the third region reads are the third weights, entry by entry. -/
theorem weights2 : mat (StableHlo.after hostOps2 W (Proc.devRef .tc main_v15)) = mat (W (Proc.devRef .tc main_arg8)) := by
  have e : @Eq (FVec Ideal S1024x1024 .bf16) (StableHlo.after hostOps2 W (Proc.devRef .tc main_v15))
      (truncf .bf16 (W (Proc.devRef .tc main_arg8) : FVec Ideal S1024x1024 .f32) bitsLt_bf16_f32) := by
    after_results <;> rfl
  rw [e]; rfl

/-- The row of squared norms the third region reads holds each third center's squared norm. -/
theorem sqnorms2 (j : Fin 32) :
    StableHlo.after hostOps2 W (Proc.devRef .tc main_v18) (ix2 (0 : Fin 1) j) = sqn (mat (W (Proc.devRef .tc main_arg3)) j) := by
  have e : StableHlo.after hostOps2 W (Proc.devRef .tc main_v18)
      = broadcastInDim S1x32 ![1] bcast_S32_S1x32_1
          (Host.reduceAdd (F := Ideal) (mulf (W (Proc.devRef .tc main_arg3) : FVec Ideal S32x1024 .f32) (W (Proc.devRef .tc main_arg3)))
            (constant (F := Ideal) S_ .f32 0x00000000#32) reducesTo_S32x1024_S32_d1 h_S_) := by
    after_results <;> rfl
  rw [e]
  exact sqnRow_apply _ reducesTo_S32x1024_S32_d1 (by decide) h_S_ bcast_S32_S1x32_1 j

/-- The bias row the third region reads is the third bias. -/
theorem bias2 : (fun o : Fin 1024 => StableHlo.after hostOps2 W (Proc.devRef .tc main_v19) (ix2 (0 : Fin 1) o))
    = vec (W (Proc.devRef .tc main_arg9)) := by
  have e : StableHlo.after hostOps2 W (Proc.devRef .tc main_v19)
      = shapeCast S1x1024 (W (Proc.devRef .tc main_arg9) : (S1024 : Shape).Idx → EReal) shapeCasts_S1024_S1x1024 := by
    after_results <;> rfl
  rw [e]
  exact rowOf_apply _ shapeCasts_S1024_S1x1024

end Stretch2

end Cert.KernelIdeal.HostGlue

end
-- ==== Proof.KernelValue.lean ====
/-
  The value the kernel's program returns: the three levels chained, applied to the arguments as launched.

  The return buffer is the third region's result array, which ends holding the third level's output of the arrays that region was
  entered with; its feature rows are the second region's result array, likewise the second level's output, whose feature rows are the first
  region's result array, the first level's output of the launched features. Each level's centers, weights and bias are what the host
  operations before its region make of the launched arguments — the same entries — and the row of squared norms each region is handed holds
  its centers' squared norms. No host operation and no region writes an argument, so each is read as launched.
-/
import proofs.«143953_j12661563588794_1_alg».proof.Proof.Level1
import proofs.«143953_j12661563588794_1_alg».proof.Proof.Level2
import proofs.«143953_j12661563588794_1_alg».proof.Proof.Level3
import proofs.«143953_j12661563588794_1_alg».proof.Proof.HostGlue
import proofs.«143953_j12661563588794_1_alg».proof.Proof.Gen.KernelIdeal.Frame

noncomputable section

namespace Cert.KernelIdeal.KernelValue

open Cert.KernelIdeal Cert.KernelIdeal.Gen Cert.SoftAssign
open Idealize.ShloMosaic Idealize.ShloMosaic.TcCoe Idealize.SL.Sem Idealize.ShloMosaic.ValueIdx
open Cert.KernelIdeal.HostGlue

variable (m : (ℓ : Loc nD τ sig) → Buf (Elt Ideal) ℓ) (ρ : Dev nD → PrngReg) (c : Dev nD)

/-! ## A buffer nothing has written yet holds what it was launched with -/

/-- Up to the first region's exit. -/
theorem atExit0 (r : Ref sig .tc) (h2 : ∀ w, Pipeline.arrRef spec0 w ≠ r) (h0 : r ∉ written0) :
    W2 m ρ c (Proc.devRef .tc r) = m ((c : Thread nD τ).loc r) :=
  (W2_of_ne m ρ c r h2).trans (keep0 (W0 m ρ c) r h0)

/-- Up to the second region's exit. -/
theorem atExit1 (r : Ref sig .tc) (h4 : ∀ w, Pipeline.arrRef spec1 w ≠ r) (h1 : r ∉ written1)
    (h2 : ∀ w, Pipeline.arrRef spec0 w ≠ r) (h0 : r ∉ written0) :
    W4 m ρ c (Proc.devRef .tc r) = m ((c : Thread nD τ).loc r) :=
  (W4_of_ne m ρ c r h4).trans ((keep1 (W2 m ρ c) r h1).trans (atExit0 m ρ c r h2 h0))

/-! ## The three regions' result arrays -/

/-- The first region's result array ends holding the first level's output of the launched features, first centers, weights and bias. -/
theorem level1_value :
    W2 m ρ c (Proc.devRef .tc main_v6)
      = toArr (level (mat (m ((c : Thread nD τ).loc main_arg0))) (mat (m ((c : Thread nD τ).loc main_arg1)))
          (mat (m ((c : Thread nD τ).loc main_arg4))) (vec (m ((c : Thread nD τ).loc main_arg5)))) := by
  have hcs : ∀ j : Fin 2048, V1 m ρ c main_v4 (ix2 (0 : Fin 1) j) = sqn (mat (V1 m ρ c main_v0) j) := fun j =>
    (sqnorms0 (W0 m ρ c) j).trans (congrArg sqn (congrFun (centers0 (W0 m ρ c)).symm j))
  refine (W2_arr m ρ c 5).trans ((Level1.final (V1 m ρ) c hcs).trans ?_)
  have hx : mat (V1 m ρ c main_arg0) = mat (m ((c : Thread nD τ).loc main_arg0)) :=
    congrArg (mat (a := 16384) (b := 1024)) (keep0 (W0 m ρ c) main_arg0 (by decide))
  have hc : mat (V1 m ρ c main_v0) = mat (m ((c : Thread nD τ).loc main_arg1)) := centers0 (W0 m ρ c)
  have hw : mat (V1 m ρ c main_v1) = mat (m ((c : Thread nD τ).loc main_arg4)) := weights0 (W0 m ρ c)
  have hb : (fun o' : Fin 1024 => V1 m ρ c main_v5 (ix2 (0 : Fin 1) o')) = vec (m ((c : Thread nD τ).loc main_arg5)) := bias0 (W0 m ρ c)
  unfold Level1.result
  rw [hx, hc, hw, hb]

/-- The second region's result array ends holding the second level's output of the first level's. -/
theorem level2_value :
    W4 m ρ c (Proc.devRef .tc main_v13)
      = toArr (level (mat (W2 m ρ c (Proc.devRef .tc main_v6))) (mat (m ((c : Thread nD τ).loc main_arg2)))
          (mat (m ((c : Thread nD τ).loc main_arg6))) (vec (m ((c : Thread nD τ).loc main_arg7)))) := by
  have hcs : ∀ j : Fin 256, V3 m ρ c main_v11 (ix2 (0 : Fin 1) j) = sqn (mat (V3 m ρ c main_v7) j) := fun j =>
    (sqnorms1 (W2 m ρ c) j).trans (congrArg sqn (congrFun (centers1 (W2 m ρ c)).symm j))
  refine (W4_arr m ρ c 5).trans ((Level2.final (V3 m ρ) c hcs).trans ?_)
  have hx : mat (V3 m ρ c main_v6) = mat (W2 m ρ c (Proc.devRef .tc main_v6)) :=
    congrArg (mat (a := 2048) (b := 1024)) (keep1 (W2 m ρ c) main_v6 (by decide))
  have hc : mat (V3 m ρ c main_v7) = mat (m ((c : Thread nD τ).loc main_arg2)) :=
    (centers1 (W2 m ρ c)).trans (congrArg (mat (a := 256) (b := 1024)) (atExit0 m ρ c main_arg2 (by decide) (by decide)))
  have hw : mat (V3 m ρ c main_v8) = mat (m ((c : Thread nD τ).loc main_arg6)) :=
    (weights1 (W2 m ρ c)).trans (congrArg (mat (a := 1024) (b := 1024)) (atExit0 m ρ c main_arg6 (by decide) (by decide)))
  have hb : (fun o' : Fin 1024 => V3 m ρ c main_v12 (ix2 (0 : Fin 1) o')) = vec (m ((c : Thread nD τ).loc main_arg7)) :=
    (bias1 (W2 m ρ c)).trans (congrArg (vec (a := 1024)) (atExit0 m ρ c main_arg7 (by decide) (by decide)))
  unfold Level2.result
  rw [hx, hc, hw, hb]

/-- The third region's result array ends holding the third level's output of the second level's. -/
theorem level3_value :
    W6 m ρ c (Proc.devRef .tc main_v20)
      = toArr (level (mat (W4 m ρ c (Proc.devRef .tc main_v13))) (mat (m ((c : Thread nD τ).loc main_arg3)))
          (mat (m ((c : Thread nD τ).loc main_arg8))) (vec (m ((c : Thread nD τ).loc main_arg9)))) := by
  have hcs : ∀ j : Fin 32, V5 m ρ c main_v18 (ix2 (0 : Fin 1) j) = sqn (mat (V5 m ρ c main_v14) j) := fun j =>
    (sqnorms2 (W4 m ρ c) j).trans (congrArg sqn (congrFun (centers2 (W4 m ρ c)).symm j))
  refine (W6_arr m ρ c 5).trans ((Level3.final (V5 m ρ) c hcs).trans ?_)
  have hx : mat (V5 m ρ c main_v13) = mat (W4 m ρ c (Proc.devRef .tc main_v13)) :=
    congrArg (mat (a := 256) (b := 1024)) (keep2 (W4 m ρ c) main_v13 (by decide))
  have hc : mat (V5 m ρ c main_v14) = mat (m ((c : Thread nD τ).loc main_arg3)) :=
    (centers2 (W4 m ρ c)).trans (congrArg (mat (a := 32) (b := 1024)) (atExit1 m ρ c main_arg3 (by decide) (by decide) (by decide) (by decide)))
  have hw : mat (V5 m ρ c main_v15) = mat (m ((c : Thread nD τ).loc main_arg8)) :=
    (weights2 (W4 m ρ c)).trans (congrArg (mat (a := 1024) (b := 1024)) (atExit1 m ρ c main_arg8 (by decide) (by decide) (by decide) (by decide)))
  have hb : (fun o' : Fin 1024 => V5 m ρ c main_v19 (ix2 (0 : Fin 1) o')) = vec (m ((c : Thread nD τ).loc main_arg9)) :=
    (bias2 (W4 m ρ c)).trans (congrArg (vec (a := 1024)) (atExit1 m ρ c main_arg9 (by decide) (by decide) (by decide) (by decide)))
  unfold Level3.result
  rw [hx, hc, hw, hb]

/-! ## The returned value -/

/-- The program's return buffer holds the three levels chained, applied to the launched arguments. -/
theorem result_value (m : (ℓ : Loc nD τ sig) → Buf (Elt Ideal) ℓ) (ρ : Dev nD → PrngReg) (c : Dev nD) :
    Gen.W6 m ρ c (Proc.devRef .tc main_v20)
      = toArr (forward (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) (mat (m ((c.tc : Thread nD τ).loc main_arg8))) (vec (m ((c.tc : Thread nD τ).loc main_arg9)))) := by
  rw [level3_value, level2_value, level1_value, mat_toArr, mat_toArr]
  rfl

end Cert.KernelIdeal.KernelValue

end
-- ==== Proof.RefLevel.lean ====
/-
  One level of the reference, read entry by entry.

  The reference computes a level from the feature rows h (n × d), the centers c (m × d), the weights W (d × d) and the bias
  b (d) in three stages: the logits z (n × m), minus the squared distances over 4; the exponentials e = exp (z - rowmax z);
  and the output (e / rowsum e)ᵀ · tanh (h · Wᵀ + b) (m × d). Each stage is spelt here once, for any extents, as the
  same composition of array operations the reference's run spells, and then read at one entry: a row sum is a sum over
  the row's coordinates, a row maximum the fold of max over them, a product of matrices the sum over the contracted
  coordinate, a transpose the swapped entry, a broadcast the entry it repeats. Entry (j, o) of the output is then the
  specification's level at (j, o).
-/
import proofs.«143953_j12661563588794_1_alg».proof.Proof.Spec
import Idealize.ShloMosaic.Lib.IdealHost
import Idealize.ShloMosaic.Lib.ValueLayout
import Idealize.ShloMosaic.Lib.StackMember

noncomputable section

namespace Cert.ReferenceIdeal.RefLevel

open Cert.SoftAssign Idealize.ShloMosaic Idealize.ShloMosaic.ValueIdx
open scoped BigOperators

variable {n m d : ℕ}

/-! ## Broadcasts of a vector down the columns and along the rows -/

/-- A vector of n entries made a column and repeated along each row: entry (r, j) is entry r. -/
theorem bcast_col_apply {α : Type} (h1 : (⟨1, ![n]⟩ : Shape).BroadcastsInDim ⟨2, ![n, 1]⟩ ![0])
    (h2 : (⟨2, ![n, 1]⟩ : Shape).BroadcastsInDim ⟨2, ![n, m]⟩ ![0, 1]) (x : (⟨1, ![n]⟩ : Shape).Idx → α)
    (r : Fin n) (j : Fin m) :
    broadcastInDim ⟨2, ![n, m]⟩ ![0, 1] h2 (broadcastInDim ⟨2, ![n, 1]⟩ ![0] h1 x) (ix2 r j) = x (ix1 r) := by
  have hr := r.isLt
  refine (broadcastInDim_apply _ h2 _ (ix2 r j) (ix2 r (0 : Fin 1)) ?_).trans
    (broadcastInDim_apply _ h1 x (ix2 r (0 : Fin 1)) (ix1 r) ?_)
  · intro a
    match a with
    | ⟨0, _⟩ =>
      show r.val = if n = 1 then 0 else r.val
      split
      · omega
      · rfl
    | ⟨1, _⟩ => exact (if_pos rfl).symm
  · intro a
    match a with
    | ⟨0, _⟩ =>
      show r.val = if n = 1 then 0 else r.val
      split
      · omega
      · rfl

/-- A vector of m entries made a row and repeated down each column: entry (r, j) is entry j. -/
theorem bcast_row_apply {α : Type} (h1 : (⟨1, ![m]⟩ : Shape).BroadcastsInDim ⟨2, ![1, m]⟩ ![1])
    (h2 : (⟨2, ![1, m]⟩ : Shape).BroadcastsInDim ⟨2, ![n, m]⟩ ![0, 1]) (x : (⟨1, ![m]⟩ : Shape).Idx → α)
    (r : Fin n) (j : Fin m) :
    broadcastInDim ⟨2, ![n, m]⟩ ![0, 1] h2 (broadcastInDim ⟨2, ![1, m]⟩ ![1] h1 x) (ix2 r j) = x (ix1 j) := by
  have hj := j.isLt
  refine (broadcastInDim_apply _ h2 _ (ix2 r j) (ix2 (0 : Fin 1) j) ?_).trans
    (broadcastInDim_apply _ h1 x (ix2 (0 : Fin 1) j) (ix1 j) ?_)
  · intro a
    match a with
    | ⟨0, _⟩ => exact (if_pos rfl).symm
    | ⟨1, _⟩ =>
      show j.val = if m = 1 then 0 else j.val
      split
      · omega
      · rfl
  · intro a
    match a with
    | ⟨0, _⟩ =>
      show j.val = if m = 1 then 0 else j.val
      split
      · omega
      · rfl

/-! ## A row's sum and a row's maximum -/

/-- The reduced index r with coordinate k put back on the second axis is (r, k). -/
theorem lift_row (hR : (⟨2, ![n, m]⟩ : Shape).Reduces [1] ⟨1, ![n]⟩) (r : Fin n)
    (k : Fin ((⟨2, ![n, m]⟩ : Shape).size 1)) : hR.lift (ix1 r) k = ix2 r (⟨k.val, k.isLt⟩ : Fin m) := by
  funext c; apply Fin.ext
  match c with
  | ⟨0, _⟩ => rfl
  | ⟨1, _⟩ => rfl

/-- A reduction over the second axis of a matrix, as the kind of fact a row sum's reading needs. -/
theorem reduces_of_reducesTo (h' : (⟨2, ![n, m]⟩ : Shape).ReducesTo [1] ⟨1, ![n]⟩) :
    (⟨2, ![n, m]⟩ : Shape).Reduces [1] ⟨1, ![n]⟩ := ⟨h'.1, Nat.one_pos, h'.2⟩

/-- The sum over the second axis from a zero start, at row r: the sum of the row's entries. -/
theorem rowSum_apply (x : FVec Ideal ⟨2, ![n, m]⟩ .f32) (h' : (⟨2, ![n, m]⟩ : Shape).ReducesTo [1] ⟨1, ![n]⟩)
    (hu : 0 < (⟨0, ![]⟩ : Shape).numel) (r : Fin n) :
    Host.reduceAdd x (constant (F := Ideal) ⟨0, ![]⟩ .f32 0x00000000#32) h' hu (ix1 r) = ∑ k : Fin m, x (ix2 r k) := by
  have hR := reduces_of_reducesTo h'
  refine (hostReduceAdd_apply x _ h' hu (ix1 r)).trans ?_
  refine (Ideal.hostReduceAdd_single h' hR x _ (ix1 r)).trans ?_
  refine (congrArg (· + _) Ideal.ofBits_zero_f32).trans ((zero_add _).trans ?_)
  exact Finset.sum_congr rfl fun k _ => congrArg x (lift_row hR r k)

/-- The maximum over the second axis from -∞, at row r: the fold of max over the row's entries. -/
theorem rowMax_apply (z : FVec Ideal ⟨2, ![n, m]⟩ .f32) (h' : (⟨2, ![n, m]⟩ : Shape).ReducesTo [1] ⟨1, ![n]⟩)
    (hu : 0 < (⟨0, ![]⟩ : Shape).numel) (r : Fin n) :
    Host.reduce FloatOps.maximumf z (constant (F := Ideal) ⟨0, ![]⟩ .f32 0xFF800000#32) h' hu (ix1 r)
      = (Finset.univ : Finset (Fin m)).fold max negInf (fun j => z (ix2 r j)) := by
  have hR := reduces_of_reducesTo h'
  refine (Host.reduce_eq_fold_single FloatOps.maximumf z _ h' hR hu (ix1 r)).trans ?_
  have hf : (z ∘ hR.lift (ix1 r)) = fun k : Fin m => z (ix2 r k) := funext fun k => congrArg z (lift_row hR r k)
  exact congrArg (fun f => Finset.fold max negInf f (Finset.univ : Finset (Fin m))) hf

/-! ## A product of two matrices -/

/-- An a × k matrix times a k × b matrix, at (p, q): the sum over the contracted coordinate. -/
theorem dot_apply {a k b : ℕ} (w : DotDims.WF ⟨2, ![a, k]⟩ ⟨2, ![k, b]⟩ ⟨2, ![a, b]⟩ [1] [0] [0] [1] [] [])
    (A : FVec Ideal ⟨2, ![a, k]⟩ .f32) (B : FVec Ideal ⟨2, ![k, b]⟩ .f32) (p : Fin a) (q : Fin b) :
    Host.dotGeneral (⟨[1], [0], [0], [1], [], [], w⟩ : DotDims ⟨2, ![a, k]⟩ ⟨2, ![k, b]⟩ ⟨2, ![a, b]⟩) none A B (ix2 p q)
      = ∑ c : Fin k, A (ix2 p c) * B (ix2 c q) :=
  StackMember.dotGeneral_plain_apply none A B p q

/-! ## The shape facts of one level -/

/-- What the array operations of one level ask of its shapes: n rows, m centers, width d. -/
structure Shapes (n m d : ℕ) : Prop where
  scalar : 0 < (⟨0, ![]⟩ : Shape).numel
  sumH : (⟨2, ![n, d]⟩ : Shape).ReducesTo [1] ⟨1, ![n]⟩
  colN : (⟨1, ![n]⟩ : Shape).BroadcastsInDim ⟨2, ![n, 1]⟩ ![0]
  colNM : (⟨2, ![n, 1]⟩ : Shape).BroadcastsInDim ⟨2, ![n, m]⟩ ![0, 1]
  splatNM : (⟨0, ![]⟩ : Shape).BroadcastsInDim ⟨2, ![n, m]⟩ ![]
  trC : (⟨2, ![m, d]⟩ : Shape).Transposes [1, 0] ⟨2, ![d, m]⟩
  dotHC : DotDims.WF ⟨2, ![n, d]⟩ ⟨2, ![d, m]⟩ ⟨2, ![n, m]⟩ [1] [0] [0] [1] [] []
  sumC : (⟨2, ![m, d]⟩ : Shape).ReducesTo [1] ⟨1, ![m]⟩
  rowM : (⟨1, ![m]⟩ : Shape).BroadcastsInDim ⟨2, ![1, m]⟩ ![1]
  rowNM : (⟨2, ![1, m]⟩ : Shape).BroadcastsInDim ⟨2, ![n, m]⟩ ![0, 1]
  redZ : (⟨2, ![n, m]⟩ : Shape).ReducesTo [1] ⟨1, ![n]⟩
  splatN : (⟨0, ![]⟩ : Shape).BroadcastsInDim ⟨1, ![n]⟩ ![]
  trW : (⟨2, ![d, d]⟩ : Shape).Transposes [1, 0] ⟨2, ![d, d]⟩
  dotHW : DotDims.WF ⟨2, ![n, d]⟩ ⟨2, ![d, d]⟩ ⟨2, ![n, d]⟩ [1] [0] [0] [1] [] []
  rowD : (⟨1, ![d]⟩ : Shape).BroadcastsInDim ⟨2, ![1, d]⟩ ![1]
  rowND : (⟨2, ![1, d]⟩ : Shape).BroadcastsInDim ⟨2, ![n, d]⟩ ![0, 1]
  trP : (⟨2, ![n, m]⟩ : Shape).Transposes [1, 0] ⟨2, ![m, n]⟩
  dotPT : DotDims.WF ⟨2, ![m, n]⟩ ⟨2, ![n, d]⟩ ⟨2, ![m, d]⟩ [1] [0] [0] [1] [] []

variable (R : Shapes n m d)

/-! ## The three stages, as compositions of array operations -/

/-- The logits: minus (‖h r‖² - 2 ⟨h r, c j⟩ + ‖c j‖²), over 4. -/
def logits (h : FVec Ideal ⟨2, ![n, d]⟩ .f32) (c : FVec Ideal ⟨2, ![m, d]⟩ .f32) : FVec Ideal ⟨2, ![n, m]⟩ .f32 :=
  Host.divf (Host.negf (addf (subf (broadcastInDim ⟨2, ![n, m]⟩ ![0, 1] R.colNM (broadcastInDim ⟨2, ![n, 1]⟩ ![0] R.colN (Host.reduceAdd (mulf h h) (constant (F := Ideal) ⟨0, ![]⟩ .f32 0x00000000#32) R.sumH R.scalar))) (mulf (broadcastInDim ⟨2, ![n, m]⟩ ![] R.splatNM (constant (F := Ideal) ⟨0, ![]⟩ .f32 0x40000000#32)) (Host.dotGeneral (⟨[1], [0], [0], [1], [], [], R.dotHC⟩ : DotDims ⟨2, ![n, d]⟩ ⟨2, ![d, m]⟩ ⟨2, ![n, m]⟩) none h (transpose ⟨2, ![d, m]⟩ [1, 0] c R.trC)))) (broadcastInDim ⟨2, ![n, m]⟩ ![0, 1] R.rowNM (broadcastInDim ⟨2, ![1, m]⟩ ![1] R.rowM (Host.reduceAdd (mulf c c) (constant (F := Ideal) ⟨0, ![]⟩ .f32 0x00000000#32) R.sumC R.scalar))))) (broadcastInDim ⟨2, ![n, m]⟩ ![] R.splatNM (constant (F := Ideal) ⟨0, ![]⟩ .f32 0x40800000#32))

/-- The exponentials of the logits, each row's largest logit subtracted first. -/
def expos (z : FVec Ideal ⟨2, ![n, m]⟩ .f32) : FVec Ideal ⟨2, ![n, m]⟩ .f32 :=
  Host.exp (subf z (broadcastInDim ⟨2, ![n, m]⟩ ![0, 1] R.colNM (broadcastInDim ⟨2, ![n, 1]⟩ ![0] R.colN (maximumf (broadcastInDim ⟨1, ![n]⟩ ![] R.splatN (constant (F := Ideal) ⟨0, ![]⟩ .f32 0xFF800000#32)) (Host.reduce FloatOps.maximumf z (constant (F := Ideal) ⟨0, ![]⟩ .f32 0xFF800000#32) R.redZ R.scalar)))))

/-- The output: the normalized exponentials, transposed, times tanh (h · Wᵀ + b). -/
def output (e : FVec Ideal ⟨2, ![n, m]⟩ .f32) (h : FVec Ideal ⟨2, ![n, d]⟩ .f32) (W : FVec Ideal ⟨2, ![d, d]⟩ .f32)
    (b : FVec Ideal ⟨1, ![d]⟩ .f32) : FVec Ideal ⟨2, ![m, d]⟩ .f32 :=
  Host.dotGeneral (⟨[1], [0], [0], [1], [], [], R.dotPT⟩ : DotDims ⟨2, ![m, n]⟩ ⟨2, ![n, d]⟩ ⟨2, ![m, d]⟩) none (transpose ⟨2, ![m, n]⟩ [1, 0] (Host.divf e (broadcastInDim ⟨2, ![n, m]⟩ ![0, 1] R.colNM (broadcastInDim ⟨2, ![n, 1]⟩ ![0] R.colN (Host.reduceAdd e (constant (F := Ideal) ⟨0, ![]⟩ .f32 0x00000000#32) R.redZ R.scalar)))) R.trP) (Host.tanh (addf (Host.dotGeneral (⟨[1], [0], [0], [1], [], [], R.dotHW⟩ : DotDims ⟨2, ![n, d]⟩ ⟨2, ![d, d]⟩ ⟨2, ![n, d]⟩) none h (transpose ⟨2, ![d, d]⟩ [1, 0] W R.trW)) (broadcastInDim ⟨2, ![n, d]⟩ ![0, 1] R.rowND (broadcastInDim ⟨2, ![1, d]⟩ ![1] R.rowD b))))

/-- One level of the reference. -/
def refLevel (h : FVec Ideal ⟨2, ![n, d]⟩ .f32) (c : FVec Ideal ⟨2, ![m, d]⟩ .f32) (W : FVec Ideal ⟨2, ![d, d]⟩ .f32)
    (b : FVec Ideal ⟨1, ![d]⟩ .f32) : FVec Ideal ⟨2, ![m, d]⟩ .f32 :=
  output R (expos R (logits R h c)) h W b

/-! ## The stages read at an entry -/

/-- Entry (r, j) of the logits is row r's logit at center j. -/
theorem logits_apply (h : FVec Ideal ⟨2, ![n, d]⟩ .f32) (c : FVec Ideal ⟨2, ![m, d]⟩ .f32) (r : Fin n) (j : Fin m) :
    logits R h c (ix2 r j) = logit (mat h r) (mat c) j := by
  have e1 := bcast_col_apply (m := m) R.colN R.colNM
    (Host.reduceAdd (mulf h h) (constant (F := Ideal) ⟨0, ![]⟩ .f32 0x00000000#32) R.sumH R.scalar) r j
  have e1' := rowSum_apply (mulf h h) R.sumH R.scalar r
  have e2 := broadcastInDim_scalar_apply R.splatNM (constant (F := Ideal) ⟨0, ![]⟩ .f32 0x40000000#32) (ix2 r j)
  have e3 := dot_apply R.dotHC h (transpose ⟨2, ![d, m]⟩ [1, 0] c R.trC) r j
  have e3' : ∀ k : Fin d, transpose ⟨2, ![d, m]⟩ [1, 0] c R.trC (ix2 k j) = c (ix2 j k) :=
    fun k => transpose_ix2_apply c R.trC k j
  have e4 := bcast_row_apply (n := n) R.rowM R.rowNM
    (Host.reduceAdd (mulf c c) (constant (F := Ideal) ⟨0, ![]⟩ .f32 0x00000000#32) R.sumC R.scalar) r j
  have e4' := rowSum_apply (mulf c c) R.sumC R.scalar j
  have e5 := broadcastInDim_scalar_apply R.splatNM (constant (F := Ideal) ⟨0, ![]⟩ .f32 0x40800000#32) (ix2 r j)
  unfold logits
  show Ideal.div (-((_ - _ * _) + _)) _ = _
  rw [e1, e1', e2, e3, e4, e4', e5]
  simp only [e3']
  rfl

/-- Entry (r, j) of the exponentials: the exponential of the entry minus the row's largest, never below -∞. -/
theorem expos_apply (z : FVec Ideal ⟨2, ![n, m]⟩ .f32) (r : Fin n) (j : Fin m) :
    expos R z (ix2 r j) = Ideal.exp (z (ix2 r j) - rmax fun j' => z (ix2 r j')) := by
  have e1 := bcast_col_apply (m := m) R.colN R.colNM
    (maximumf (broadcastInDim ⟨1, ![n]⟩ ![] R.splatN (constant (F := Ideal) ⟨0, ![]⟩ .f32 0xFF800000#32))
      (Host.reduce FloatOps.maximumf z (constant (F := Ideal) ⟨0, ![]⟩ .f32 0xFF800000#32) R.redZ R.scalar)) r j
  have e2 := broadcastInDim_scalar_apply R.splatN (constant (F := Ideal) ⟨0, ![]⟩ .f32 0xFF800000#32) (ix1 r)
  have e3 := rowMax_apply z R.redZ R.scalar r
  unfold expos
  show Ideal.exp (_ - _) = _
  rw [e1]
  show Ideal.exp (_ - max _ _) = _
  rw [e2, e3]
  rfl

/-- Entry (r, j) of the exponentials of the logits is the specification's. -/
theorem expos_logits_apply (h : FVec Ideal ⟨2, ![n, d]⟩ .f32) (c : FVec Ideal ⟨2, ![m, d]⟩ .f32) (r : Fin n) (j : Fin m) :
    expos R (logits R h c) (ix2 r j) = expo (mat h r) (mat c) j := by
  rw [expos_apply, logits_apply]
  have hz : (fun j' => logits R h c (ix2 r j')) = logit (mat h r) (mat c) := funext fun j' => logits_apply R h c r j'
  rw [hz]
  rfl

/-- Entry (j, o) of the output: the sum over the rows of the row's normalized weight at j times its transformed entry o. -/
theorem output_apply (e : FVec Ideal ⟨2, ![n, m]⟩ .f32) (h : FVec Ideal ⟨2, ![n, d]⟩ .f32) (W : FVec Ideal ⟨2, ![d, d]⟩ .f32)
    (b : FVec Ideal ⟨1, ![d]⟩ .f32) (j : Fin m) (o : Fin d) :
    output R e h W b (ix2 j o)
      = ∑ r : Fin n, Ideal.div (e (ix2 r j)) (∑ j' : Fin m, e (ix2 r j')) * act (mat h r) (mat W) (vec b) o := by
  unfold output
  refine (dot_apply R.dotPT _ _ j o).trans (Finset.sum_congr rfl fun r _ => ?_)
  have p1 := transpose_ix2_apply (Host.divf e (broadcastInDim ⟨2, ![n, m]⟩ ![0, 1] R.colNM (broadcastInDim ⟨2, ![n, 1]⟩ ![0] R.colN
    (Host.reduceAdd e (constant (F := Ideal) ⟨0, ![]⟩ .f32 0x00000000#32) R.redZ R.scalar)))) R.trP j r
  have p2 := bcast_col_apply (m := m) R.colN R.colNM
    (Host.reduceAdd e (constant (F := Ideal) ⟨0, ![]⟩ .f32 0x00000000#32) R.redZ R.scalar) r j
  have p3 := rowSum_apply e R.redZ R.scalar r
  have t1 := dot_apply R.dotHW h (transpose ⟨2, ![d, d]⟩ [1, 0] W R.trW) r o
  have t1' : ∀ k : Fin d, transpose ⟨2, ![d, d]⟩ [1, 0] W R.trW (ix2 k o) = W (ix2 o k) :=
    fun k => transpose_ix2_apply W R.trW k o
  have t2 := bcast_row_apply (n := n) R.rowD R.rowND b r o
  rw [p1]
  show Ideal.div _ _ * Ideal.tanh (_ + _) = _
  rw [p2, p3, t1, t2]
  simp only [t1']
  rfl

/-- Entry (j, o) of the reference's level is the specification's level at (j, o). -/
theorem refLevel_apply (h : FVec Ideal ⟨2, ![n, d]⟩ .f32) (c : FVec Ideal ⟨2, ![m, d]⟩ .f32) (W : FVec Ideal ⟨2, ![d, d]⟩ .f32)
    (b : FVec Ideal ⟨1, ![d]⟩ .f32) (j : Fin m) (o : Fin d) :
    refLevel R h c W b (ix2 j o) = level (mat h) (mat c) (mat W) (vec b) j o := by
  unfold refLevel
  rw [output_apply]
  refine Finset.sum_congr rfl fun r _ => ?_
  have he : ∀ j' : Fin m, expos R (logits R h c) (ix2 r j') = expo (mat h r) (mat c) j' :=
    fun j' => expos_logits_apply R h c r j'
  simp only [he]
  rfl

/-- So the reference's level, as an array, is the specification's level of the operands' coordinate functions. -/
theorem refLevel_eq (h : FVec Ideal ⟨2, ![n, d]⟩ .f32) (c : FVec Ideal ⟨2, ![m, d]⟩ .f32) (W : FVec Ideal ⟨2, ![d, d]⟩ .f32)
    (b : FVec Ideal ⟨1, ![d]⟩ .f32) :
    refLevel R h c W b = toArr (level (mat h) (mat c) (mat W) (vec b)) :=
  eq_toArr _ _ fun j o => refLevel_apply R h c W b j o

end Cert.ReferenceIdeal.RefLevel

end
-- ==== Proof.RefValue.lean ====
/-
  The reference's run, read as the specification.

  The reference's program is three levels chained. Its run ends with the result buffer at one composed term of the
  arguments' launch contents; that term is, stage by stage, the level spelt once for any extents, at the three levels'
  extents (16384 rows to 2048 centers, 2048 to 256, 256 to 32, width 1024). A level read entry by entry is the
  specification's level, so the result buffer holds the specification's forward map of the ten arguments.
-/
import proofs.«143953_j12661563588794_1_alg».proof.Proof.Spec
import proofs.«143953_j12661563588794_1_alg».proof.Proof.Gen.ReferenceIdeal.Run
import proofs.«143953_j12661563588794_1_alg».proof.Proof.RefLevel

noncomputable section

namespace Cert.ReferenceIdeal.RefValue

open Cert.ReferenceIdeal Cert.ReferenceIdeal.Gen Cert.SoftAssign Cert.ReferenceIdeal.RefLevel
open Idealize.ShloMosaic Idealize.ShloMosaic.TcCoe Idealize.SL.Sem Idealize.ShloMosaic.ValueIdx

/-! ## The shape facts of the three levels -/

/-- 16384 rows, 2048 centers. -/
theorem shapes1 : Shapes 16384 2048 1024 where
  scalar := h_S_
  sumH := reducesTo_S16384x1024_S16384_d1
  colN := bcast_S16384_S16384x1_0
  colNM := bcast_S16384x1_S16384x2048_0_1
  splatNM := bcast_S_S16384x2048
  trC := transposes_S2048x1024_S1024x2048_1_0
  dotHC := dot_S16384x1024_S1024x2048_S16384x2048_1_0_0_1_n_n_wf
  sumC := reducesTo_S2048x1024_S2048_d1
  rowM := bcast_S2048_S1x2048_1
  rowNM := bcast_S1x2048_S16384x2048_0_1
  redZ := reducesTo_S16384x2048_S16384_d1
  splatN := bcast_S_S16384
  trW := transposes_S1024x1024_S1024x1024_1_0
  dotHW := dot_S16384x1024_S1024x1024_S16384x1024_1_0_0_1_n_n_wf
  rowD := bcast_S1024_S1x1024_1
  rowND := bcast_S1x1024_S16384x1024_0_1
  trP := transposes_S16384x2048_S2048x16384_1_0
  dotPT := dot_S2048x16384_S16384x1024_S2048x1024_1_0_0_1_n_n_wf

/-- 2048 rows, 256 centers. -/
theorem shapes2 : Shapes 2048 256 1024 where
  scalar := h_S_
  sumH := reducesTo_S2048x1024_S2048_d1
  colN := bcast_S2048_S2048x1_0
  colNM := bcast_S2048x1_S2048x256_0_1
  splatNM := bcast_S_S2048x256
  trC := transposes_S256x1024_S1024x256_1_0
  dotHC := dot_S2048x1024_S1024x256_S2048x256_1_0_0_1_n_n_wf
  sumC := reducesTo_S256x1024_S256_d1
  rowM := bcast_S256_S1x256_1
  rowNM := bcast_S1x256_S2048x256_0_1
  redZ := reducesTo_S2048x256_S2048_d1
  splatN := bcast_S_S2048
  trW := transposes_S1024x1024_S1024x1024_1_0
  dotHW := dot_S2048x1024_S1024x1024_S2048x1024_1_0_0_1_n_n_wf
  rowD := bcast_S1024_S1x1024_1
  rowND := bcast_S1x1024_S2048x1024_0_1
  trP := transposes_S2048x256_S256x2048_1_0
  dotPT := dot_S256x2048_S2048x1024_S256x1024_1_0_0_1_n_n_wf

/-- 256 rows, 32 centers. -/
theorem shapes3 : Shapes 256 32 1024 where
  scalar := h_S_
  sumH := reducesTo_S256x1024_S256_d1
  colN := bcast_S256_S256x1_0
  colNM := bcast_S256x1_S256x32_0_1
  splatNM := bcast_S_S256x32
  trC := transposes_S32x1024_S1024x32_1_0
  dotHC := dot_S256x1024_S1024x32_S256x32_1_0_0_1_n_n_wf
  sumC := reducesTo_S32x1024_S32_d1
  rowM := bcast_S32_S1x32_1
  rowNM := bcast_S1x32_S256x32_0_1
  redZ := reducesTo_S256x32_S256_d1
  splatN := bcast_S_S256
  trW := transposes_S1024x1024_S1024x1024_1_0
  dotHW := dot_S256x1024_S1024x1024_S256x1024_1_0_0_1_n_n_wf
  rowD := bcast_S1024_S1x1024_1
  rowND := bcast_S1x1024_S256x1024_0_1
  trP := transposes_S256x32_S32x256_1_0
  dotPT := dot_S32x256_S256x1024_S32x1024_1_0_0_1_n_n_wf

/-! ## The run's named terms are the stages of the three levels -/

variable (V0 : Valuation τ sig (Elt Ideal))

set_option maxHeartbeats 400000 in
theorem v16_eq : Value.res_main_v16 (F := Ideal) V0
    = logits shapes1 (V0 (Proc.devRef .tc main_arg0)) (V0 (Proc.devRef .tc main_arg1)) := rfl

set_option maxHeartbeats 400000 in
theorem v23_eq : Value.res_main_v23 (F := Ideal) V0 = expos shapes1 (Value.res_main_v16 (F := Ideal) V0) := rfl

set_option maxHeartbeats 400000 in
theorem v35_eq : Value.res_main_v35 (F := Ideal) V0
    = output shapes1 (Value.res_main_v23 (F := Ideal) V0) (V0 (Proc.devRef .tc main_arg0)) (V0 (Proc.devRef .tc main_arg4))
        (V0 (Proc.devRef .tc main_arg5)) := rfl

set_option maxHeartbeats 400000 in
theorem v52_eq : Value.res_main_v52 (F := Ideal) V0
    = logits shapes2 (Value.res_main_v35 (F := Ideal) V0) (V0 (Proc.devRef .tc main_arg2)) := rfl

set_option maxHeartbeats 400000 in
theorem v59_eq : Value.res_main_v59 (F := Ideal) V0 = expos shapes2 (Value.res_main_v52 (F := Ideal) V0) := rfl

set_option maxHeartbeats 400000 in
theorem v71_eq : Value.res_main_v71 (F := Ideal) V0
    = output shapes2 (Value.res_main_v59 (F := Ideal) V0) (Value.res_main_v35 (F := Ideal) V0) (V0 (Proc.devRef .tc main_arg6))
        (V0 (Proc.devRef .tc main_arg7)) := rfl

set_option maxHeartbeats 400000 in
theorem v88_eq : Value.res_main_v88 (F := Ideal) V0
    = logits shapes3 (Value.res_main_v71 (F := Ideal) V0) (V0 (Proc.devRef .tc main_arg3)) := rfl

set_option maxHeartbeats 400000 in
theorem v95_eq : Value.res_main_v95 (F := Ideal) V0 = expos shapes3 (Value.res_main_v88 (F := Ideal) V0) := rfl

/-- The first level's result is the level of the first four operands. -/
theorem level1_eq : Value.res_main_v35 (F := Ideal) V0
    = refLevel shapes1 (V0 (Proc.devRef .tc main_arg0)) (V0 (Proc.devRef .tc main_arg1)) (V0 (Proc.devRef .tc main_arg4))
        (V0 (Proc.devRef .tc main_arg5)) := by
  rw [v35_eq, v23_eq, v16_eq]; rfl

/-- The second level's result is the level of the first level's result. -/
theorem level2_eq : Value.res_main_v71 (F := Ideal) V0
    = refLevel shapes2 (Value.res_main_v35 (F := Ideal) V0) (V0 (Proc.devRef .tc main_arg2)) (V0 (Proc.devRef .tc main_arg6))
        (V0 (Proc.devRef .tc main_arg7)) := by
  rw [v71_eq, v59_eq, v52_eq]; rfl

/-! ## The result buffer holds the specification's forward map -/

/-- The third level's result, over the launch contents, is the forward map of the ten arguments. -/
theorem out_eq (m : (ℓ : Loc nD τ sig) → Buf (Elt Ideal) ℓ) (c : Dev nD) :
    output shapes3 (Value.res_main_v95 (F := Ideal) (Idealize.ShloMosaic.StableHlo.launchContents m c))
        (Value.res_main_v71 (F := Ideal) (Idealize.ShloMosaic.StableHlo.launchContents m c))
        (Idealize.ShloMosaic.StableHlo.launchContents m c (Proc.devRef .tc main_arg8))
        (Idealize.ShloMosaic.StableHlo.launchContents m c (Proc.devRef .tc main_arg9))
      = toArr (forward (mat (m ((c.tc : Thread nD τ).loc main_arg0))) (mat (m ((c.tc : Thread nD τ).loc main_arg1)))
          (mat (m ((c.tc : Thread nD τ).loc main_arg2))) (mat (m ((c.tc : Thread nD τ).loc main_arg3)))
          (mat (m ((c.tc : Thread nD τ).loc main_arg4))) (vec (m ((c.tc : Thread nD τ).loc main_arg5)))
          (mat (m ((c.tc : Thread nD τ).loc main_arg6))) (vec (m ((c.tc : Thread nD τ).loc main_arg7)))
          (mat (m ((c.tc : Thread nD τ).loc main_arg8))) (vec (m ((c.tc : Thread nD τ).loc main_arg9)))) := by
  rw [v95_eq, v88_eq]
  show refLevel shapes3 _ _ _ _ = _
  rw [refLevel_eq, level2_eq, refLevel_eq, level1_eq, refLevel_eq]
  simp only [mat_toArr]
  rfl

/-- On every device every weakly fair execution of the reference terminates with the result buffer at the specification's
    forward map of the ten arguments' launch contents, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v107)
        = toArr (forward (mat (m ((c.tc : Thread nD τ).loc main_arg0))) (mat (m ((c.tc : Thread nD τ).loc main_arg1)))
            (mat (m ((c.tc : Thread nD τ).loc main_arg2))) (mat (m ((c.tc : Thread nD τ).loc main_arg3)))
            (mat (m ((c.tc : Thread nD τ).loc main_arg4))) (vec (m ((c.tc : Thread nD τ).loc main_arg5)))
            (mat (m ((c.tc : Thread nD τ).loc main_arg6))) (vec (m ((c.tc : Thread nD τ).loc main_arg7)))
            (mat (m ((c.tc : Thread nD τ).loc main_arg8))) (vec (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c => ⟨(h c).1.trans (out_eq m c), (h c).2⟩) (Value.run (F := Ideal) m ρ)

end Cert.ReferenceIdeal.RefValue

end
-- ==== Proof.lean ====
/-
  Three cascaded levels of soft clustering: the tiled kernel and the plain reference compute one function of their arguments.

  A level takes feature rows `h r`, centers `c j`, a weight matrix `W` and a bias `b`. Every row is softly assigned to the centers —
  the softmax, over the centers, of minus a quarter of the squared distances `‖h r‖² - 2 ⟨h r, c j⟩ + ‖c j‖²` — and transformed to
  `tanh (W h r + b)`; output row `j` is the sum over ALL rows `r` of (row `r`'s weight at `j`) · (row `r` transformed). The reference
  forms the whole `rows × centers` weight matrix and takes one matrix product with the transformed rows. The kernel walks the rows in
  tiles of 256 with the centers, their squared norms, the weights and the bias resident: a tile's weights and transformed rows depend
  on that tile's rows alone, so the tile's share of the product is one small product contracting the tile's rows, which the kernel adds to an
  output block that it zeroes before the first tile and writes back after the last. Over the extended reals the formats the kernel
  passes through on the way into its products change nothing, `0 - x` is `-x`, and a sum taken tile by tile in order from zero is the sum:
  addition of extended reals is commutative and associative, which is all the regrouping needs, so no finiteness of the inputs is used.
  The three levels chain — each region's result array is the next region's feature array, and between the regions the host forms the next
  centers' squared norms exactly as the reference does — so both programs end at `forward` of their arguments (Spec.lean).

  The frames of the two kernel programs are their generated frame certificates, the reference's its generated run; the ideal pass rewrote
  nothing, so `preserves` asks nothing.
-/
import proofs.«143953_j12661563588794_1_alg».proof.Defs
import proofs.«143953_j12661563588794_1_alg».proof.Proof.Gen.Kernel
import proofs.«143953_j12661563588794_1_alg».proof.Proof.Gen.Kernel.Frame
import proofs.«143953_j12661563588794_1_alg».proof.Proof.Gen.KernelIdeal
import proofs.«143953_j12661563588794_1_alg».proof.Proof.Gen.KernelIdeal.Frame
import proofs.«143953_j12661563588794_1_alg».proof.Proof.Gen.ReferenceIdeal
import proofs.«143953_j12661563588794_1_alg».proof.Proof.Gen.ReferenceIdeal.Run
import proofs.«143953_j12661563588794_1_alg».proof.Proof.Gen.Pre_finite_inputs
import proofs.«143953_j12661563588794_1_alg».proof.Proof.KernelRun
import proofs.«143953_j12661563588794_1_alg».proof.Proof.KernelValue
import proofs.«143953_j12661563588794_1_alg».proof.Proof.RefValue
import Idealize.ShloMosaic.Adequacy
import Idealize.ShloMosaic.Init

noncomputable section

namespace Cert.Proof

open Idealize.ShloMosaic Idealize.ShloMosaic.TcCoe Idealize.SL.Sem Cert.SoftAssign

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both idealized programs end with the result array at `forward` of the arguments, which agree. -/
theorem algebraic : Cert.algebraic_KernelIdeal_ReferenceIdeal := by
  intro m ρ m' ρ' _ hagree
  refine ⟨fun c => toArr (forward (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2))) (mat (m ((c.tc : Thread Cert.KernelIdeal.nD Cert.KernelIdeal.τ).loc Cert.KernelIdeal.main_arg3))) (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (mat (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))) (mat (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9)))), ?_, ?_⟩
  · exact (θ_run Cert.KernelIdeal.defs _ _).mono
      (fun _ h c => ⟨(h c).1.trans (Cert.KernelIdeal.KernelValue.result_value m ρ c), (h c).2⟩)
      (Cert.KernelIdeal.KernelRun.run_value (F := Ideal) m ρ)
  · refine (θ_run Cert.ReferenceIdeal.defs _ _).mono (fun _ h c => ⟨(h c).1.trans ?_, (h c).2⟩)
      (Cert.ReferenceIdeal.RefValue.run_value m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
